-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S64x64 : Shape := ⟨2, ![64, 64]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S4x16x1024x64 .f32) (main_arg1 : FVec F S4x16x1024x64 .f32) (main_arg2 : FVec F S4x16x1024x64 .f32) (main_arg3 : FVec F S64x64 .f32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S4x16x1024x64 : Shape := ⟨4, ![4, 16, 1024, 64]⟩
abbrev S64x64 : Shape := ⟨2, ![64, 64]⟩
abbrev S1x1x1024x64 : Shape := ⟨4, ![1, 1, 1024, 64]⟩
abbrev S1024x64 : Shape := ⟨2, ![1024, 64]⟩
abbrev S1024x65 : Shape := ⟨2, ![1024, 65]⟩
abbrev S64x65 : Shape := ⟨2, ![64, 65]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S256x256 : Shape := ⟨2, ![256, 256]⟩
abbrev S256x64 : Shape := ⟨2, ![256, 64]⟩
abbrev S256x65 : Shape := ⟨2, ![256, 65]⟩
abbrev S64x256 : Shape := ⟨2, ![64, 256]⟩
abbrev S256x1 : Shape := ⟨2, ![256, 1]⟩
abbrev S1x1x256x64 : Shape := ⟨4, ![1, 1, 256, 64]⟩

abbrev nBuf : Space → Nat
  | .hbm => 5
  | .vmem => 13
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S64x64, .f32⟩
  | .hbm, ⟨4, _⟩ => ⟨S4x16x1024x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S64x64, .f32⟩
  | .local _ .vmem, ⟨7, _⟩ => ⟨S1x1x1024x64, .f32⟩
  | .local _ .vmem, ⟨8, _⟩ => ⟨S1x1x1024x64, .f32⟩
  | .local _ .vmem, ⟨9, _⟩ => ⟨S1024x64, .bf16⟩
  | .local _ .vmem, ⟨10, _⟩ => ⟨S1024x64, .bf16⟩
  | .local _ .vmem, ⟨11, _⟩ => ⟨S1024x65, .bf16⟩
  | .local _ .vmem, ⟨12, _⟩ => ⟨S64x65, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  reduces_S1024x1_S1 : S1024x1.Reduces [0] S1
  shapeCasts_S1_S1x1 : S1.ShapeCasts S1x1
  broadcasts_S1x1_S1024x64 : S1x1.Broadcasts S1024x64
  inb_S1024x65_S1024x64_0_0 : ∀ a, (![0, 0] : Fin 2 → Nat) a + S1024x64.size a ≤ S1024x65.size a
  packedbf16_S1024x65_S1024x64_0_0 : (Rect.unit (s := S1024x65) ![0, 0] S1024x64.size inb_S1024x65_S1024x64_0_0).PackedRows (EltTy.packing .bf16)
  inb_S1024x65_S1024x1_0_64 : ∀ a, (![0, 64] : Fin 2 → Nat) a + S1024x1.size a ≤ S1024x65.size a
  h_S1024x1 : 0 < S1024x1.numel
  shapeCasts_S1024x1_S1024x1 : S1024x1.ShapeCasts S1024x1
  packedbf16_S1024x65_S1024x1_0_64 : (Rect.unit (s := S1024x65) ![0, 64] S1024x1.size inb_S1024x65_S1024x1_0_64).PackedRows (EltTy.packing .bf16)
  inb_S64x65_S64x65_0_0 : ∀ a, (![0, 0] : Fin 2 → Nat) a + S64x65.size a ≤ S64x65.size a
  h_S64x65 : 0 < S64x65.numel
  shapeCasts_S64x65_S64x65 : S64x65.ShapeCasts S64x65
  iota_S256x256_d0_w32 : S256x256.Iotas .tc 32 [0]
  iota_S256x256_d1_w32 : S256x256.Iotas .tc 32 [1]
  inb_S1024x64_S256x64_0_0 : ∀ a, (![0, 0] : Fin 2 → Nat) a + S256x64.size a ≤ S1024x64.size a
  h_S256x64 : 0 < S256x64.numel
  inb_S1024x65_S256x65_0_0 : ∀ a, (![0, 0] : Fin 2 → Nat) a + S256x65.size a ≤ S1024x65.size a
  h_S256x65 : 0 < S256x65.numel
  transposes_S256x64_p1_0_S64x256 : S256x64.Transposes [1, 0] S64x256
  slices_S256x65_o0_64_S256x1 : S256x65.Slices ![0, 64] S256x1
  slices_S256x65_o0_0_S256x64 : S256x65.Slices ![0, 0] S256x64
  broadcasts_S256x1_S256x64 : S256x1.Broadcasts S256x64
  inb_S1x1x1024x64_S1x1x256x64_0_0_0_0 : ∀ a, (![0, 0, 0, 0] : Fin 4 → Nat) a + S1x1x256x64.size a ≤ S1x1x1024x64.size a
  h_S1x1x256x64 : 0 < S1x1x256x64.numel
  shapeCasts_S1x1x256x64_S256x64 : S1x1x256x64.ShapeCasts S256x64
  shapeCasts_S256x64_S1x1x256x64 : S256x64.ShapeCasts S1x1x256x64
  inb_S1024x64_S256x64_256_0 : ∀ a, (![256, 0] : Fin 2 → Nat) a + S256x64.size a ≤ S1024x64.size a
  inb_S1024x65_S256x65_256_0 : ∀ a, (![256, 0] : Fin 2 → Nat) a + S256x65.size a ≤ S1024x65.size a
  inb_S1x1x1024x64_S1x1x256x64_0_0_256_0 : ∀ a, (![0, 0, 256, 0] : Fin 4 → Nat) a + S1x1x256x64.size a ≤ S1x1x1024x64.size a
  inb_S1024x64_S256x64_512_0 : ∀ a, (![512, 0] : Fin 2 → Nat) a + S256x64.size a ≤ S1024x64.size a
  inb_S1024x65_S256x65_512_0 : ∀ a, (![512, 0] : Fin 2 → Nat) a + S256x65.size a ≤ S1024x65.size a
  inb_S1x1x1024x64_S1x1x256x64_0_0_512_0 : ∀ a, (![0, 0, 512, 0] : Fin 4 → Nat) a + S1x1x256x64.size a ≤ S1x1x1024x64.size a
  inb_S1024x64_S256x64_768_0 : ∀ a, (![768, 0] : Fin 2 → Nat) a + S256x64.size a ≤ S1024x64.size a
  inb_S1024x65_S256x65_768_0 : ∀ a, (![768, 0] : Fin 2 → Nat) a + S256x65.size a ≤ S1024x65.size a
  inb_S1x1x1024x64_S1x1x256x64_0_0_768_0 : ∀ a, (![0, 0, 768, 0] : Fin 4 → Nat) a + S1x1x256x64.size a ≤ S1x1x1024x64.size a
  dot_S1024x64_S64x64_S1024x64_1_0_0_1_n_n_wf : DotDims.WF S1024x64 S64x64 S1024x64 [1] [0] [0] [1] [] []
  dot_S256x64_S64x65_S256x65_1_0_0_1_n_n_wf : DotDims.WF S256x64 S64x65 S256x65 [1] [0] [0] [1] [] []
  dot_S256x64_S64x256_S256x256_1_0_0_1_n_n_wf : DotDims.WF S256x64 S64x256 S256x256 [1] [0] [0] [1] [] []
  dot_S256x256_S256x65_S256x65_1_0_0_1_n_n_wf : DotDims.WF S256x256 S256x65 S256x65 [1] [0] [0] [1] [] []
  dot_S64x256_S256x65_S64x65_1_0_0_1_n_n_wf : DotDims.WF S64x256 S256x65 S64x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x1024x64.size a
  hwx0_0 : ∀ i : grid0.Coords, EltTy.bits .f32 = 32 ∨ (Rect.block (s := S4x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S4x16x1024x64.size a
  hwx0_1 : ∀ i : grid0.Coords, EltTy.bits .f32 = 32 ∨ (Rect.block (s := S4x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S4x16x1024x64.size a
  hwx0_2 : ∀ i : grid0.Coords, EltTy.bits .f32 = 32 ∨ (Rect.block (s := S4x16x1024x64) S1x1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x16x1024x64.size a
  hwx0_4 : ∀ i : grid0.Coords, EltTy.bits .f32 = 32 ∨ (Rect.block (s := S4x16x1024x64) S1x1x1024x64.size (cc0_transform_4 i) (hinb0_4 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S256x64_S64x65_S256x65_1_0_0_1_n_n : DotDims S256x64 S64x65 S256x65 where
  lhsContracting := [1]
  rhsContracting := [0]
  lhsNonContracting := [0]
  rhsNonContracting := [1]
  lhsBatch := []
  rhsBatch := []
  wf := dot_S256x64_S64x65_S256x65_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x65_S256x65_1_0_0_1_n_n : DotDims S256x256 S256x65 S256x65 where
  lhsContracting := [1]
  rhsContracting := [0]
  lhsNonContracting := [0]
  rhsNonContracting := [1]
  lhsBatch := []
  rhsBatch := []
  wf := dot_S256x256_S256x65_S256x65_1_0_0_1_n_n_wf
def dot_S64x256_S256x65_S64x65_1_0_0_1_n_n : DotDims S64x256 S256x65 S64x65 where
  lhsContracting := [1]
  rhsContracting := [0]
  lhsNonContracting := [0]
  rhsNonContracting := [1]
  lhsBatch := []
  rhsBatch := []
  wf := dot_S64x256_S256x65_S64x65_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S64x64 : Shape := ⟨2, ![64, 64]⟩
abbrev S_ : Shape := ⟨0, ![]⟩
abbrev S4x16x1024 : Shape := ⟨3, ![4, 16, 1024]⟩
abbrev S4x16x1024x1 : Shape := ⟨4, ![4, 16, 1024, 1]⟩
abbrev S4x16 : Shape := ⟨2, ![4, 16]⟩
abbrev S4x16x1x1 : Shape := ⟨4, ![4, 16, 1, 1]⟩
abbrev S4x16x1024x1024 : Shape := ⟨4, ![4, 16, 1024, 1024]⟩
abbrev S1024x1024 : Shape := ⟨2, ![1024, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S64x64, .f32⟩
  | .hbm, ⟨4, _⟩ => ⟨S_, .f32⟩
  | .hbm, ⟨5, _⟩ => ⟨S4x16x1024x64, .f32⟩
  | .hbm, ⟨6, _⟩ => ⟨S4x16x1024x64, .f32⟩
  | .hbm, ⟨7, _⟩ => ⟨S4x16x1024x64, .f32⟩
  | .hbm, ⟨8, _⟩ => ⟨S4x16x1024x64, .f32⟩
  | .hbm, ⟨9, _⟩ => ⟨S_, .f32⟩
  | .hbm, ⟨10, _⟩ => ⟨S4x16x1024, .f32⟩
  | .hbm, ⟨11, _⟩ => ⟨S4x16x1024x1, .f32⟩
  | .hbm, ⟨12, _⟩ => ⟨S_, .f32⟩
  | .hbm, ⟨13, _⟩ => ⟨S4x16x1024x1, .f32⟩
  | .hbm, ⟨14, _⟩ => ⟨S4x16x1024x1, .f32⟩
  | .hbm, ⟨15, _⟩ => ⟨S_, .f32⟩
  | .hbm, ⟨16, _⟩ => ⟨S4x16x1024x1, .f32⟩
  | .hbm, ⟨17, _⟩ => ⟨S4x16x1024x1, .f32⟩
  | .hbm, ⟨18, _⟩ => ⟨S_, .f32⟩
  | .hbm, ⟨19, _⟩ => ⟨S4x16x1024, .f32⟩
  | .hbm, ⟨20, _⟩ => ⟨S4x16x1024x1, .f32⟩
  | .hbm, ⟨21, _⟩ => ⟨S4x16x1024x64, .f32⟩
  | .hbm, ⟨22, _⟩ => ⟨S4x16x1024x64, .f32⟩
  | .hbm, ⟨23, _⟩ => ⟨S4x16x1024x64, .f32⟩
  | .hbm, ⟨24, _⟩ => ⟨S4x16x1024x64, .f32⟩
  | .hbm, ⟨25, _⟩ => ⟨S4x16x1024x64, .f32⟩
  | .hbm, ⟨26, _⟩ => ⟨S_, .f32⟩
  | .hbm, ⟨27, _⟩ => ⟨S4x16x1024x64, .f32⟩
  | .hbm, ⟨28, _⟩ => ⟨S4x16x1024x64, .f32⟩
  | .hbm, ⟨29, _⟩ => ⟨S_, .f32⟩
  | .hbm, ⟨30, _⟩ => ⟨S4x16x1024x64, .f32⟩
  | .hbm, ⟨31, _⟩ => ⟨S4x16x1024x64, .f32⟩
  | .hbm, ⟨32, _⟩ => ⟨S4x16x1024x64, .f32⟩
  | .hbm, ⟨33, _⟩ => ⟨S4x16x1024x64, .f32⟩
  | .hbm, ⟨34, _⟩ => ⟨S_, .f32⟩
  | .hbm, ⟨35, _⟩ => ⟨S4x16x1024, .f32⟩
  | .hbm, ⟨36, _⟩ => ⟨S4x16x1024x1, .f32⟩
  | .hbm, ⟨37, _⟩ => ⟨S_, .f32⟩
  | .hbm, ⟨38, _⟩ => ⟨S4x16x1024x1, .f32⟩
  | .hbm, ⟨39, _⟩ => ⟨S4x16x1024x1, .f32⟩
  | .hbm, ⟨40, _⟩ => ⟨S_, .f32⟩
  | .hbm, ⟨41, _⟩ => ⟨S4x16x1024x1, .f32⟩
  | .hbm, ⟨42, _⟩ => ⟨S4x16x1024x1, .f32⟩
  | .hbm, ⟨43, _⟩ => ⟨S_, .f32⟩
  | .hbm, ⟨44, _⟩ => ⟨S4x16, .f32⟩
  | .hbm, ⟨45, _⟩ => ⟨S4x16x1x1, .f32⟩
  | .hbm, ⟨46, _⟩ => ⟨S4x16x1024x64, .f32⟩
  | .hbm, ⟨47, _⟩ => ⟨S4x16x1024x64, .f32⟩
  | .hbm, ⟨48, _⟩ => ⟨S4x16x1024x64, .f32⟩
  | .hbm, ⟨49, _⟩ => ⟨S4x16x1024x64, .f32⟩
  | .hbm, ⟨50, _⟩ => ⟨S4x16x1024x64, .f32⟩
  | .hbm, ⟨51, _⟩ => ⟨S_, .f32⟩
  | .hbm, ⟨52, _⟩ => ⟨S4x16x1024x64, .f32⟩
  | .hbm, ⟨53, _⟩ => ⟨S4x16x1024x64, .f32⟩
  | .hbm, ⟨54, _⟩ => ⟨S4x16x1024x1024, .f32⟩
  | .hbm, ⟨55, _⟩ => ⟨S1024x1024, .i32⟩
  | .hbm, ⟨56, _⟩ => ⟨S_, .i32⟩
  | .hbm, ⟨57, _⟩ => ⟨S1024x1024, .i32⟩
  | .hbm, ⟨58, _⟩ => ⟨S1024x1024, .i32⟩
  | .hbm, ⟨59, _⟩ => ⟨S1024x1024, .i32⟩
  | .hbm, ⟨60, _⟩ => ⟨S1024x1024, .i1⟩
  | .hbm, ⟨61, _⟩ => ⟨S4x16x1024x1024, .i1⟩
  | .hbm, ⟨62, _⟩ => ⟨S_, .f32⟩
  | .hbm, ⟨63, _⟩ => ⟨S4x16x1024x1024, .f32⟩
  | .hbm, ⟨64, _⟩ => ⟨S4x16x1024x1024, .f32⟩
  | .hbm, ⟨65, _⟩ => ⟨S_, .f32⟩
  | .hbm, ⟨66, _⟩ => ⟨S4x16x1024, .f32⟩
  | .hbm, ⟨67, _⟩ => ⟨S4x16x1024x1, .f32⟩
  | .hbm, ⟨68, _⟩ => ⟨S4x16x1024x1024, .f32⟩
  | .hbm, ⟨69, _⟩ => ⟨S4x16x1024x1024, .f32⟩
  | .hbm, ⟨70, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_cst : Ref sig .tc := ⟨.hbm, 62, rfl⟩
abbrev main_call0_v6 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  bcast_S_S4x16x1024x64 : S_.BroadcastsInDim S4x16x1024x64 (![] : Fin 0 → Fin S4x16x1024x64.rank)
  reducesTo_S4x16x1024x64_S4x16x1024_d3 : S4x16x1024x64.ReducesTo [3] S4x16x1024
  h_S_ : 0 < S_.numel
  bcast_S4x16x1024_S4x16x1024x1_0_1_2 : S4x16x1024.BroadcastsInDim S4x16x1024x1 (![0, 1, 2] : Fin 3 → Fin S4x16x1024x1.rank)
  bcast_S_S4x16x1024x1 : S_.BroadcastsInDim S4x16x1024x1 (![] : Fin 0 → Fin S4x16x1024x1.rank)
  bcast_S4x16x1024x1_S4x16x1024x64_0_1_2_3 : S4x16x1024x1.BroadcastsInDim S4x16x1024x64 (![0, 1, 2, 3] : Fin 4 → Fin S4x16x1024x64.rank)
  reducesTo_S4x16x1024x64_S4x16_d2_3 : S4x16x1024x64.ReducesTo [2, 3] S4x16
  bcast_S4x16_S4x16x1x1_0_1 : S4x16.BroadcastsInDim S4x16x1x1 (![0, 1] : Fin 2 → Fin S4x16x1x1.rank)
  bcast_S4x16x1x1_S4x16x1024x64_0_1_2_3 : S4x16x1x1.BroadcastsInDim S4x16x1024x64 (![0, 1, 2, 3] : Fin 4 → Fin S4x16x1024x64.rank)
  bcast_S_S1024x1024 : S_.BroadcastsInDim S1024x1024 (![] : Fin 0 → Fin S1024x1024.rank)
  bcast_S1024x1024_S4x16x1024x1024_2_3 : S1024x1024.BroadcastsInDim S4x16x1024x1024 (![2, 3] : Fin 2 → Fin S4x16x1024x1024.rank)
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  bcast_S4x16x1024x1_S4x16x1024x1024_0_1_2_3 : S4x16x1024x1.BroadcastsInDim S4x16x1024x1024 (![0, 1, 2, 3] : Fin 4 → Fin S4x16x1024x1024.rank)
  dot_S4x16x1024x64_S64x64_S4x16x1024x64_3_0_012_1_n_n_wf : DotDims.WF S4x16x1024x64 S64x64 S4x16x1024x64 [3] [0] [0, 1, 2] [1] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S64x64_S4x16x1024x64_3_0_012_1_n_n : DotDims S4x16x1024x64 S64x64 S4x16x1024x64 where
  lhsContracting := [3]
  rhsContracting := [0]
  lhsNonContracting := [0, 1, 2]
  rhsNonContracting := [1]
  lhsBatch := []
  rhsBatch := []
  wf := dot_S4x16x1024x64_S64x64_S4x16x1024x64_3_0_012_1_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KChunk.lean ====
/- One chunk of 256 rows of the kernel's body, read one entry at a time at the exact (extended-real) values.

   A chunk takes its 256 query-feature rows `q`, key-feature rows `k`, augmented value rows `v` (65 columns) and the running
   state `st` (64 × 65).  It forms  q · st  (the earlier chunks' contribution),  the 256 × 256 scores  q · kᵀ  with the entries
   above the diagonal replaced by zero, that masked block times `v` (the chunk's own contribution), adds the two, and divides the
   first 64 columns by the 65th.  The state then grows by  kᵀ · v.  Each step below is one of these operations at an entry. -/
import proofs.«170563_j12987981103117_2_alg».proof.Proof.Gen.KernelIdeal.Skeleton
import proofs.«170563_j12987981103117_2_alg».proof.Proof.LibRowDot
import proofs.«170563_j12987981103117_2_alg».proof.Proof.LibColumn
import Idealize.ShloMosaic.Lib.Pipeline.Value
import Idealize.ShloMosaic.Lib.ValueIdx
import Idealize.ShloMosaic.Lib.Affine
import Idealize.ShloMosaic.PureOps.Ideal.Laws

noncomputable section

namespace Cert.KChunk

open Idealize.ShloMosaic Idealize.ShloMosaic.ValueIdx Cert.KernelIdeal Cert.KernelIdeal.Gen

/-! ## Products -/

/-- A plain M×K by K×N product into zero, at entry (p, q): the sum over k of l(p,k) · r(k,q). -/
theorem mm_apply {M K N : Nat} (D : DotDims ⟨2, ![M, K]⟩ ⟨2, ![K, N]⟩ ⟨2, ![M, N]⟩) (hD : D = DotDims.plain M K N)
    {φ₁ φ₂ : FTy} (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q) = ∑ k : Fin K, l (ix2 p k) * r (ix2 k q) := by
  subst hD
  exact Cert.RowDot.matmul_plain_zero_apply none l r (ix2 p q)

/-- The transpose of a 256×64 array at (m, r). -/
theorem tr_apply (x : FVec Ideal S256x64 .bf16) (m : Fin 64) (r : Fin 256) :
    transpose S64x256 [1, 0] x transposes_S256x64_p1_0_S64x256 (ix2 m r) = x (ix2 r m) :=
  transpose_apply [1, 0] x transposes_S256x64_p1_0_S64x256 (ix2 m r) (ix2 r m) (fun b => by
    match b with
    | ⟨0, _⟩ => rfl
    | ⟨1, _⟩ => rfl)

/-! ## The pieces of a chunk -/

/-- q · st : the earlier chunks, through the state. -/
def viaState (q : FVec Ideal S256x64 .bf16) (st : FVec Ideal S64x65 .f32) : FVec Ideal S256x65 .f32 :=
  matmul dot_S256x64_S64x65_S256x65_1_0_0_1_n_n none q (truncf .bf16 st bitsLt_bf16_f32) (constant S256x65 .f32 0x00000000#32)

/-- q · kᵀ : the chunk's scores. -/
def scores (q k : FVec Ideal S256x64 .bf16) : FVec Ideal S256x256 .f32 :=
  matmul dot_S256x64_S64x256_S256x256_1_0_0_1_n_n none q (transpose S64x256 [1, 0] k transposes_S256x64_p1_0_S64x256)
    (constant S256x256 .f32 0x00000000#32)

/-- The scores with the entries the mask rejects replaced by zero. -/
def masked (mask : IVec S256x256 1) (sc : FVec Ideal S256x256 .f32) : FVec Ideal S256x256 .bf16 :=
  truncf .bf16 (select mask sc (broadcast S256x256 (Scalar.ofBits (F := Ideal) .f32 0x00000000#32))) bitsLt_bf16_f32

/-- The masked scores times the augmented values: the chunk's own contribution. -/
def ownChunk (ms : FVec Ideal S256x256 .bf16) (v : FVec Ideal S256x65 .bf16) : FVec Ideal S256x65 .f32 :=
  matmul dot_S256x256_S256x65_S256x65_1_0_0_1_n_n none ms v (constant S256x65 .f32 0x00000000#32)

/-- Both contributions. -/
def combined (mask : IVec S256x256 1) (q k : FVec Ideal S256x64 .bf16) (v : FVec Ideal S256x65 .bf16) (st : FVec Ideal S64x65 .f32) :
    FVec Ideal S256x65 .f32 :=
  addf (viaState q st) (ownChunk (masked mask (scores q k)) v)

/-- The first 64 columns divided by the 65th. -/
def normalised (cmb : FVec Ideal S256x65 .f32) : FVec Ideal S256x64 .f32 :=
  divf (extractStridedSlice S256x64 ![0, 0] cmb slices_S256x65_o0_0_S256x64)
    (broadcastTo S256x64 (extractStridedSlice S256x1 ![0, 64] cmb slices_S256x65_o0_64_S256x1) broadcasts_S256x1_S256x64)

/-- A 256×64 array as a block of the 1×1×1024×64 window. -/
def asBlock (o : FVec Ideal S256x64 .f32) : FVec Ideal S1x1x256x64 .f32 := shapeCast S1x1x256x64 o shapeCasts_S256x64_S1x1x256x64

/-- kᵀ · v added to the state. -/
def grown (k : FVec Ideal S256x64 .bf16) (v : FVec Ideal S256x65 .bf16) (st : FVec Ideal S64x65 .f32) : FVec Ideal S64x65 .f32 :=
  addf st (matmul dot_S64x256_S256x65_S64x65_1_0_0_1_n_n none (transpose S64x256 [1, 0] k transposes_S256x64_p1_0_S64x256) v
    (constant S64x65 .f32 0x00000000#32))

/-- The four chunks' stored blocks are this one composition (the program groups its operations differently from chunk to chunk). -/
theorem pay13_eq (mask : IVec S256x256 1) (q k : FVec Ideal S256x64 .bf16) (v : FVec Ideal S256x65 .bf16) (st : FVec Ideal S64x65 .f32) :
    k0_pay13 mask q k v st = asBlock (normalised (combined mask q k v st)) := rfl
theorem pay16_eq (mask : IVec S256x256 1) (q k : FVec Ideal S256x64 .bf16) (v : FVec Ideal S256x65 .bf16) (st : FVec Ideal S64x65 .f32) :
    k0_pay16 mask q k v (k0_pay15 q st) = asBlock (normalised (combined mask q k v st)) := rfl
theorem pay19_eq (mask : IVec S256x256 1) (q k : FVec Ideal S256x64 .bf16) (v : FVec Ideal S256x65 .bf16) (st : FVec Ideal S64x65 .f32) :
    k0_pay19 (k0_pay18 mask q k v st) = asBlock (normalised (combined mask q k v st)) := rfl
theorem pay1_eq (mask : IVec S256x256 1) (q k : FVec Ideal S256x64 .bf16) (v : FVec Ideal S256x65 .bf16) (st : FVec Ideal S64x65 .f32) :
    k0_pay1 (k0_pay21 mask q k v st) = asBlock (normalised (combined mask q k v st)) := by
  unfold k0_pay1 k0_pay21 asBlock normalised combined viaState scores masked ownChunk
  rfl
/-- … and the three state updates are one. -/
theorem pay14_eq (k : FVec Ideal S256x64 .bf16) (v : FVec Ideal S256x65 .bf16) (st : FVec Ideal S64x65 .f32) :
    k0_pay14 k v st = grown k v st := by
  unfold k0_pay14 grown; exact shapeCast_self _ _
theorem pay17_eq (k : FVec Ideal S256x64 .bf16) (v : FVec Ideal S256x65 .bf16) (st : FVec Ideal S64x65 .f32) :
    k0_pay17 k v st = grown k v st := by
  unfold k0_pay17 grown; exact shapeCast_self _ _
theorem pay20_eq (k : FVec Ideal S256x64 .bf16) (v : FVec Ideal S256x65 .bf16) (st : FVec Ideal S64x65 .f32) :
    k0_pay20 k v st = grown k v st := by
  unfold k0_pay20 grown; exact shapeCast_self _ _

/-! ## Each piece at an entry -/

theorem viaState_apply (q : FVec Ideal S256x64 .bf16) (st : FVec Ideal S64x65 .f32) (r : Fin 256) (j : Fin 65) :
    viaState q st (ix2 r j) = ∑ m : Fin 64, q (ix2 r m) * st (ix2 m j) :=
  mm_apply dot_S256x64_S64x65_S256x65_1_0_0_1_n_n rfl q (truncf .bf16 st bitsLt_bf16_f32) r j

theorem scores_apply (q k : FVec Ideal S256x64 .bf16) (r r' : Fin 256) :
    scores q k (ix2 r r') = ∑ m : Fin 64, q (ix2 r m) * k (ix2 r' m) := by
  refine (mm_apply dot_S256x64_S64x256_S256x256_1_0_0_1_n_n rfl q _ r r').trans ?_
  exact Finset.sum_congr rfl fun m _ => congrArg (q (ix2 r m) * ·) (tr_apply k m r')

/-- The causal mask: row coordinate at least the column coordinate. -/
theorem mask_apply (r r' : Fin 256) : (k0_pay12 (ix2 r r') = 1#1) ↔ r' ≤ r := by
  unfold k0_pay12
  show IntOp.cmpi .sge (iota .tc S256x256 32 [0] iota_S256x256_d0_w32 (ix2 r r')) (iota .tc S256x256 32 [1] iota_S256x256_d1_w32 (ix2 r r')) = 1#1 ↔ _
  rw [iota_single_apply, iota_single_apply, IntOp.cmpi_sge]
  have h1 := r.isLt; have h2 := r'.isLt
  show (BitVec.ofNat 32 r'.val).toInt ≤ (BitVec.ofNat 32 r.val).toInt ↔ r' ≤ r
  have e : ∀ n : Nat, n < 256 → (BitVec.ofNat 32 n).toInt = (n : Int) := fun n hn => by
    rw [BitVec.toInt_eq_toNat_cond, BitVec.toNat_ofNat, Nat.mod_eq_of_lt (by omega), if_pos (by omega)]
  rw [e _ h1, e _ h2, Fin.le_def]
  exact Int.ofNat_le

theorem masked_apply (sc : FVec Ideal S256x256 .f32) (r r' : Fin 256) :
    masked k0_pay12 sc (ix2 r r') = if r' ≤ r then sc (ix2 r r') else 0 := by
  show Scalar.select (k0_pay12 (ix2 r r')) (sc (ix2 r r')) (Ideal.ofBits .f32 0x00000000#32) = _
  by_cases h : r' ≤ r
  · rw [if_pos h, (mask_apply r r').mpr h, select_one]
  · rw [if_neg h, eq_zero_of_ne_one (fun e => h ((mask_apply r r').mp e)), select_zero, Ideal.ofBits_zero_f32]

theorem ownChunk_apply (ms : FVec Ideal S256x256 .bf16) (v : FVec Ideal S256x65 .bf16) (r : Fin 256) (j : Fin 65) :
    ownChunk ms v (ix2 r j) = ∑ r' : Fin 256, ms (ix2 r r') * v (ix2 r' j) :=
  mm_apply dot_S256x256_S256x65_S256x65_1_0_0_1_n_n rfl ms v r j

theorem combined_apply (q k : FVec Ideal S256x64 .bf16) (v : FVec Ideal S256x65 .bf16) (st : FVec Ideal S64x65 .f32)
    (r : Fin 256) (j : Fin 65) :
    combined k0_pay12 q k v st (ix2 r j)
      = (∑ m : Fin 64, q (ix2 r m) * st (ix2 m j))
        + ∑ r' : Fin 256, (if r' ≤ r then ∑ m : Fin 64, q (ix2 r m) * k (ix2 r' m) else 0) * v (ix2 r' j) := by
  show viaState q st (ix2 r j) + ownChunk (masked k0_pay12 (scores q k)) v (ix2 r j) = _
  rw [viaState_apply, ownChunk_apply]
  refine congrArg (_ + ·) (Finset.sum_congr rfl fun r' _ => ?_)
  rw [masked_apply, scores_apply]

theorem normalised_apply (cmb : FVec Ideal S256x65 .f32) (r : Fin 256) (d : Fin 64) :
    normalised cmb (ix2 r d) = Ideal.div (cmb (ix2 r d.castSucc)) (cmb (ix2 r (Fin.last 64))) := by
  show Ideal.div (extractStridedSlice S256x64 ![0, 0] cmb slices_S256x65_o0_0_S256x64 (ix2 r d))
      (broadcastTo S256x64 (extractStridedSlice S256x1 ![0, 64] cmb slices_S256x65_o0_64_S256x1) broadcasts_S256x1_S256x64 (ix2 r d)) = _
  rw [Cert.Column.broadcastTo_a1_ab_apply,
    extractStridedSlice_apply ![0, 0] cmb slices_S256x65_o0_0_S256x64 (ix2 r d) (ix2 r d.castSucc) (fun a => by
      match a with
      | ⟨0, _⟩ => show r.val = 0 + r.val; omega
      | ⟨1, _⟩ => show d.val = 0 + d.val; omega),
    extractStridedSlice_apply ![0, 64] cmb slices_S256x65_o0_64_S256x1 (ix2 r (0 : Fin 1)) (ix2 r (Fin.last 64)) (fun a => by
      match a with
      | ⟨0, _⟩ => show r.val = 0 + r.val; omega
      | ⟨1, _⟩ => show 64 = 64 + 0; rfl)]

theorem asBlock_apply (o : FVec Ideal S256x64 .f32) (r : Fin 256) (d : Fin 64) :
    asBlock o (ix4 (0 : Fin 1) (0 : Fin 1) r d) = o (ix2 r d) :=
  shapeCast_apply o shapeCasts_S256x64_S1x1x256x64 _ _ (by
    rw [Shape.rowMajor_val_two, Shape.rowMajor_val_four]
    show r.val * 64 + d.val = ((0 * 1 + 0) * 256 + r.val) * 64 + d.val
    omega)

theorem grown_apply (k : FVec Ideal S256x64 .bf16) (v : FVec Ideal S256x65 .bf16) (st : FVec Ideal S64x65 .f32) (m : Fin 64) (j : Fin 65) :
    grown k v st (ix2 m j) = st (ix2 m j) + ∑ r' : Fin 256, k (ix2 r' m) * v (ix2 r' j) := by
  show st (ix2 m j) + matmul dot_S64x256_S256x65_S64x65_1_0_0_1_n_n none (transpose S64x256 [1, 0] k transposes_S256x64_p1_0_S64x256) v
      (constant S64x65 .f32 0x00000000#32) (ix2 m j) = _
  rw [mm_apply dot_S64x256_S256x65_S64x65_1_0_0_1_n_n rfl]
  exact congrArg (_ + ·) (Finset.sum_congr rfl fun r' _ => congrArg (· * v (ix2 r' j)) (tr_apply k m r'))

/-- A chunk's stored block at (0, 0, r, d). -/
theorem chunk_apply (q k : FVec Ideal S256x64 .bf16) (v : FVec Ideal S256x65 .bf16) (st : FVec Ideal S64x65 .f32)
    (r : Fin 256) (d : Fin 64) :
    asBlock (normalised (combined k0_pay12 q k v st)) (ix4 (0 : Fin 1) (0 : Fin 1) r d)
      = Ideal.div (combined k0_pay12 q k v st (ix2 r d.castSucc)) (combined k0_pay12 q k v st (ix2 r (Fin.last 64))) := by
  rw [asBlock_apply, normalised_apply]

end Cert.KChunk

end
-- ==== Proof.Spec.lean ====
/- The specification both programs meet, for ONE head: arrays are functions `Fin 1024 → Fin 64 → EReal` (rows of a head,
   features or coordinates), the projection is `Fin 64 → Fin 64 → EReal`.

   Random-feature map: `φ(x)[s,m] = exp(x̂ P [s,m] − ‖x_s‖²·c − stab) + ε` with `x̂ = x / 64^(1/4)`; for queries `stab` is the
   row maximum of `x̂ P`, for keys the maximum over the whole head.  The constant `c` is `1/16` written either as one literal or as
   the product `1/2 · 1/8` (`diag` and `diag'`).

   Causal attention with scores `S[s,t] = Σ_m φq[s,m] φk[t,m]`:
   * `dense`: `Σ_t (tril S)[s,t] / (Σ_t' (tril S)[s,t']) · v[t,d]` — normalise the masked scores row by row, then weigh the values;
   * `chunked`: rows in four chunks of 256; a running state `Σ_{earlier chunks} φk^T · [v | 1]` gives the contribution of the earlier
     chunks, a masked 256×256 block the one of the chunk itself; the extra column of ones carries the normaliser, by which the 64
     value columns are divided at the end. -/
import Idealize.ShloMosaic.PureOps.Ideal
import Idealize.ShloMosaic.Lib.ValueIdx

noncomputable section

namespace Cert.Spec

open Idealize.ShloMosaic

abbrev Mat (a b : Nat) := Fin a → Fin b → EReal

/-- Head `(b, h)` of a `4 × 16 × 1024 × 64` array, and a `64 × 64` array, as functions of their coordinates. -/
def head (x : (⟨4, ![4, 16, 1024, 64]⟩ : Shape).Idx → EReal) (b : Fin 4) (h : Fin 16) : Mat 1024 64 :=
  fun s d => x (ValueIdx.ix4 b h s d)
def mat (x : (⟨2, ![64, 64]⟩ : Shape).Idx → EReal) : Mat 64 64 := fun a b => x (ValueIdx.ix2 a b)

/-- The float literals of the two programs, as the extended reals they denote. -/
def cScale : EReal := Ideal.ofBits .f32 0x3EB504F3#32
def cEps : EReal := Ideal.ofBits .f32 0x38D1B717#32
def cSixteenth : EReal := Ideal.ofBits .f32 0x3D800000#32
def cHalf : EReal := Ideal.ofBits .f32 0x3F000000#32
def cEighth : EReal := Ideal.ofBits .f32 0x3E000000#32
def cNegInf : EReal := Ideal.ofBits .f32 0xFF800000#32

/-- `x̂ P`: the scaled rows projected. -/
def dash (x : Mat 1024 64) (P : Mat 64 64) : Mat 1024 64 := fun s m => ∑ d : Fin 64, (cScale * x s d) * P d m

/-- The squared norm of a row. -/
def sq (x : Mat 1024 64) (s : Fin 1024) : EReal := ∑ d : Fin 64, x s d * x s d

/-- `‖x_s‖² / 16`, with one literal, and with two. -/
def diag (x : Mat 1024 64) (s : Fin 1024) : EReal := sq x s * cSixteenth
def diag' (x : Mat 1024 64) (s : Fin 1024) : EReal := (sq x s * cHalf) * cEighth

/-- The maximum of a row (folded from −∞), and of the whole head (the maximum of the row maxima). -/
def rowMax (y : Mat 1024 64) (s : Fin 1024) : EReal := (Finset.univ : Finset (Fin 64)).fold max cNegInf (y s)
def allMax (y : Mat 1024 64) : EReal := (Finset.univ : Finset (Fin 1024)).fold max cNegInf (rowMax y)

/-- Query and key features, with `diag` … -/
def featQ (x : Mat 1024 64) (P : Mat 64 64) : Mat 1024 64 := fun s m =>
  Ideal.exp (dash x P s m - diag x s - rowMax (dash x P) s) + cEps
def featK (x : Mat 1024 64) (P : Mat 64 64) : Mat 1024 64 := fun s m =>
  Ideal.exp (dash x P s m - diag x s - allMax (dash x P)) + cEps
/-- … and with `diag'`. -/
def featQ' (x : Mat 1024 64) (P : Mat 64 64) : Mat 1024 64 := fun s m =>
  Ideal.exp (dash x P s m - diag' x s - rowMax (dash x P) s) + cEps
def featK' (x : Mat 1024 64) (P : Mat 64 64) : Mat 1024 64 := fun s m =>
  Ideal.exp (dash x P s m - diag' x s - allMax (dash x P)) + cEps

/-! ## The dense form -/

/-- The score of query row `s` against key row `t`. -/
def score (fq fk : Mat 1024 64) (s t : Fin 1024) : EReal := ∑ m : Fin 64, fq s m * fk t m

/-- The scores with the strictly upper triangle zeroed. -/
def tril (fq fk : Mat 1024 64) (s t : Fin 1024) : EReal := if t ≤ s then score fq fk s t else 0

/-- The normaliser of row `s`. -/
def rowSum (fq fk : Mat 1024 64) (s : Fin 1024) : EReal := ∑ t : Fin 1024, tril fq fk s t

/-- Normalise, then weigh the values. -/
def dense (fq fk v : Mat 1024 64) : Mat 1024 64 := fun s d =>
  ∑ t : Fin 1024, Ideal.div (tril fq fk s t) (rowSum fq fk s) * v t d

/-! ## The chunked form -/

/-- Row `r` of chunk `c`. -/
def row (c : Fin 4) (r : Fin 256) : Fin 1024 := ⟨256 * c.val + r.val, by have := c.isLt; have := r.isLt; omega⟩

/-- The values with a 65th column of ones. -/
def vaug (v : Mat 1024 64) (t : Fin 1024) (j : Fin 65) : EReal := if h : j.val < 64 then v t ⟨j.val, h⟩ else 1

/-- What chunk `c` adds to the state: `φk_c^T · [v_c | 1]`. -/
def upd (fk v : Mat 1024 64) (c : Fin 4) (m : Fin 64) (j : Fin 65) : EReal :=
  ∑ r' : Fin 256, fk (row c r') m * vaug v (row c r') j

/-- The state before each chunk: zero, then one update after another. -/
def state0 (_fk _v : Mat 1024 64) : Fin 64 → Fin 65 → EReal := fun _ _ => 0
def state1 (fk v : Mat 1024 64) : Fin 64 → Fin 65 → EReal := fun m j => state0 fk v m j + upd fk v 0 m j
def state2 (fk v : Mat 1024 64) : Fin 64 → Fin 65 → EReal := fun m j => state1 fk v m j + upd fk v 1 m j
def state3 (fk v : Mat 1024 64) : Fin 64 → Fin 65 → EReal := fun m j => state2 fk v m j + upd fk v 2 m j
def state (fk v : Mat 1024 64) : Fin 4 → Fin 64 → Fin 65 → EReal
  | ⟨0, _⟩ => state0 fk v
  | ⟨1, _⟩ => state1 fk v
  | ⟨2, _⟩ => state2 fk v
  | ⟨3, _⟩ => state3 fk v

/-- Row `r` of chunk `c` against the earlier chunks (through the state) plus against its own chunk (masked), column `j`. -/
def comb (fq fk v : Mat 1024 64) (c : Fin 4) (r : Fin 256) (j : Fin 65) : EReal :=
  (∑ m : Fin 64, fq (row c r) m * state fk v c m j)
    + ∑ r' : Fin 256, (if r' ≤ r then ∑ m : Fin 64, fq (row c r) m * fk (row c r') m else 0) * vaug v (row c r') j

/-- The value columns divided by the normaliser column. -/
def chunked (fq fk v : Mat 1024 64) (c : Fin 4) (r : Fin 256) (d : Fin 64) : EReal :=
  Ideal.div (comb fq fk v c r d.castSucc) (comb fq fk v c r (Fin.last 64))

end Cert.Spec

end
-- ==== Proof.KFeat.lean ====
/- The kernel's random-feature maps, read one entry at a time at the exact (extended-real) values.

   For a head's 1024 × 64 rows x and the 64 × 64 projection P the body forms  y = (c·x) P,  the column of squared row norms
   times 1/16, the column of row maxima of y (and, for the keys, the maximum of that column), and stores
   exp(y − ‖x_s‖²/16 − stabiliser) + ε.  Each operation is read at an entry, and the result is the specification's
   `featQ` / `featK` of the head's rows. -/
import proofs.«170563_j12987981103117_2_alg».proof.Proof.KChunk
import proofs.«170563_j12987981103117_2_alg».proof.Proof.Spec

set_option maxRecDepth 16384

noncomputable section

namespace Cert.KFeat

open Idealize.ShloMosaic Idealize.ShloMosaic.ValueIdx Cert.KernelIdeal Cert.KernelIdeal.Gen

open Cert.KChunk Cert.Spec

/-- The 1 × 1 × 1024 × 64 block as a matrix of extended reals. -/
def blk (x : Vec Ideal S1x1x1024x64 .f32) : Mat 1024 64 := fun s d => x (ix4 (0 : Fin 1) (0 : Fin 1) s d)
/-- The 64 × 64 block as a matrix. -/
def pmat (x : Vec Ideal S64x64 .f32) : Mat 64 64 := fun a b => x (ix2 a b)

/-! ## The pieces -/

/-- The block's rows as a 1024 × 64 array. -/
def rows (x : Vec Ideal S1x1x1024x64 .f32) : FVec Ideal S1024x64 .f32 := shapeCast S1024x64 x shapeCasts_S1x1x1024x64_S1024x64

/-- The rows scaled by the literal 64^(-1/4). -/
def scaled (x : FVec Ideal S1024x64 .f32) : FVec Ideal S1024x64 .bf16 :=
  truncf .bf16 (mulf (broadcast S1024x64 (Scalar.ofBits (F := Ideal) .f32 0x3EB504F3#32)) x) bitsLt_bf16_f32

/-- The scaled rows projected. -/
def proj (xs : FVec Ideal S1024x64 .bf16) (P : FVec Ideal S64x64 .bf16) : FVec Ideal S1024x64 .f32 :=
  matmul dot_S1024x64_S64x64_S1024x64_1_0_0_1_n_n none xs P (constant S1024x64 .f32 0x00000000#32)

/-- The column of squared row norms times 1/16. -/
def sqCol (x : FVec Ideal S1024x64 .f32) : FVec Ideal S1024x1 .f32 :=
  mulf (shapeCast S1024x1 (multiReduction .add [1] S1024 (mulf x x) 0x00000000#32 reduces_S1024x64_S1024 (.inl rfl) rfl) shapeCasts_S1024_S1024x1)
    (broadcast S1024x1 (Scalar.ofBits (F := Ideal) .f32 0x3D800000#32))

/-- The column of row maxima. -/
def maxCol (y : FVec Ideal S1024x64 .f32) : FVec Ideal S1024x1 .f32 :=
  shapeCast S1024x1 (multiReduction .maximumf [1] S1024 y 0xFF800000#32 reduces_S1024x64_S1024 (.inl rfl) rfl) shapeCasts_S1024_S1024x1

/-- The maximum of that column, as a 1 × 1 array. -/
def maxAll (y : FVec Ideal S1024x64 .f32) : FVec Ideal S1x1 .f32 :=
  shapeCast S1x1 (multiReduction .maximumf [0] S1 (maxCol y) 0xFF800000#32 reduces_S1024x1_S1 (.inl rfl) rfl) shapeCasts_S1_S1x1

/-- exp(y − dg − stab) + ε. -/
def finish (y dg stab : FVec Ideal S1024x64 .f32) : FVec Ideal S1024x64 .bf16 :=
  truncf .bf16 (addf (exp (subf (subf y dg) stab)) (broadcast S1024x64 (Scalar.ofBits (F := Ideal) .f32 0x38D1B717#32))) bitsLt_bf16_f32

/-- The query features as the body computes them. -/
def qFeat (x0 : Vec Ideal S1x1x1024x64 .f32) (x3 : Vec Ideal S64x64 .f32) : FVec Ideal S1024x64 .bf16 :=
  finish (proj (scaled (rows x0)) (truncf .bf16 x3 bitsLt_bf16_f32))
    (broadcastTo S1024x64 (sqCol (rows x0)) broadcasts_S1024x1_S1024x64)
    (broadcastTo S1024x64 (maxCol (proj (scaled (rows x0)) (truncf .bf16 x3 bitsLt_bf16_f32))) broadcasts_S1024x1_S1024x64)

/-- The key features as the body computes them. -/
def kFeat (x1 : Vec Ideal S1x1x1024x64 .f32) (x3 : Vec Ideal S64x64 .f32) : FVec Ideal S1024x64 .bf16 :=
  finish (proj (scaled (rows x1)) (truncf .bf16 x3 bitsLt_bf16_f32))
    (broadcastTo S1024x64 (sqCol (rows x1)) broadcasts_S1024x1_S1024x64)
    (broadcastTo S1024x64 (maxAll (proj (scaled (rows x1)) (truncf .bf16 x3 bitsLt_bf16_f32))) broadcasts_S1x1_S1024x64)

theorem pay6_eq (x0 : Vec Ideal S1x1x1024x64 .f32) (x3 : Vec Ideal S64x64 .f32) : k0_pay6 x0 x3 = qFeat x0 x3 := by
  unfold k0_pay6 k0_pay5 qFeat finish proj scaled rows sqCol maxCol
  exact shapeCast_self _ _

theorem pay8_eq (x1 : Vec Ideal S1x1x1024x64 .f32) (x3 : Vec Ideal S64x64 .f32) :
    k0_pay8 (k0_pay3 x1) (k0_pay5 x3) (k0_pay7 x1) (constant S1024x64 .f32 0#32) = kFeat x1 x3 := by
  unfold k0_pay8 k0_pay3 k0_pay5 k0_pay7 kFeat finish proj scaled rows sqCol maxAll maxCol
  exact shapeCast_self _ _

/-! ## Each piece at an entry -/

theorem rows_apply (x : Vec Ideal S1x1x1024x64 .f32) (s : Fin 1024) (d : Fin 64) : rows x (ix2 s d) = blk x s d :=
  shapeCast_apply x shapeCasts_S1x1x1024x64_S1024x64 (ix2 s d) (ix4 (0 : Fin 1) (0 : Fin 1) s d) (by
    rw [Shape.rowMajor_val_two, Shape.rowMajor_val_four]
    show ((0 * 1 + 0) * 1024 + s.val) * 64 + d.val = s.val * 64 + d.val
    omega)

theorem proj_apply (x : Vec Ideal S1x1x1024x64 .f32) (x3 : Vec Ideal S64x64 .f32) (s : Fin 1024) (m : Fin 64) :
    proj (scaled (rows x)) (truncf .bf16 x3 bitsLt_bf16_f32) (ix2 s m) = dash (blk x) (pmat x3) s m := by
  refine (mm_apply dot_S1024x64_S64x64_S1024x64_1_0_0_1_n_n rfl _ _ s m).trans ?_
  unfold dash
  refine Finset.sum_congr rfl fun d _ => ?_
  show (Ideal.ofBits .f32 0x3EB504F3#32 * rows x (ix2 s d)) * x3 (ix2 d m) = _
  rw [rows_apply]; rfl

/-- The inserted index of a reduction of a 1024 × 64 array along its rows. -/
theorem lift_row (s : Fin 1024) (d : Fin 64) : reduces_S1024x64_S1024.lift (ix1 s) d = ix2 s d :=
  funext fun a => Fin.ext (by match a with | ⟨0, _⟩ => rfl | ⟨1, _⟩ => rfl)

/-- The inserted index of a reduction of a 1024 × 1 column along the column. -/
theorem lift_col (s : Fin 1024) : reduces_S1024x1_S1.lift (ix1 (0 : Fin 1)) s = ix2 s (0 : Fin 1) :=
  funext fun a => Fin.ext (by match a with | ⟨0, _⟩ => rfl | ⟨1, _⟩ => rfl)

theorem sqCol_apply (x : Vec Ideal S1x1x1024x64 .f32) (s : Fin 1024) : sqCol (rows x) (ix2 s (0 : Fin 1)) = diag (blk x) s := by
  show shapeCast S1024x1 (multiReduction .add [1] S1024 (mulf (rows x) (rows x)) 0x00000000#32 reduces_S1024x64_S1024 (.inl rfl) rfl)
      shapeCasts_S1024_S1024x1 (ix2 s (0 : Fin 1)) * Ideal.ofBits .f32 0x3D800000#32 = _
  rw [Cert.Column.shapeCast_a_a1_apply]
  refine congrArg (· * Ideal.ofBits .f32 0x3D800000#32) ?_
  refine (Ideal.multiReduction_add_single (mulf (rows x) (rows x)) 0x00000000#32 reduces_S1024x64_S1024 (.inl rfl) rfl (ix1 s)).trans ?_
  unfold Cert.Spec.sq
  refine Finset.sum_congr rfl fun (d : Fin 64) _ => ?_
  refine (congrArg (mulf (rows x) (rows x)) (lift_row s d)).trans ?_
  show rows x (ix2 s d) * rows x (ix2 s d) = _
  rw [rows_apply]

theorem maxCol_apply (y : FVec Ideal S1024x64 .f32) (s : Fin 1024) :
    maxCol y (ix2 s (0 : Fin 1)) = (Finset.univ : Finset (Fin 64)).fold max cNegInf (fun m => y (ix2 s m)) := by
  show shapeCast S1024x1 (multiReduction .maximumf [1] S1024 y 0xFF800000#32 reduces_S1024x64_S1024 (.inl rfl) rfl)
      shapeCasts_S1024_S1024x1 (ix2 s (0 : Fin 1)) = _
  rw [Cert.Column.shapeCast_a_a1_apply]
  refine (Ideal.multiReduction_maximumf_single y 0xFF800000#32 reduces_S1024x64_S1024 (.inl rfl) rfl (ix1 s)).trans ?_
  refine congrArg (fun f => (Finset.univ : Finset (Fin 64)).fold max cNegInf f) (funext fun (m : Fin 64) => ?_)
  exact congrArg y (lift_row s m)

/-- The maximum of a 1024 × 1 column, kept as a 1 × 1 array, is the fold of max over the column's entries. -/
theorem colMax_apply (g : FVec Ideal S1024x1 .f32) :
    shapeCast S1x1 (multiReduction .maximumf [0] S1 g 0xFF800000#32 reduces_S1024x1_S1 (.inl rfl) rfl) shapeCasts_S1_S1x1
        (ix2 (0 : Fin 1) (0 : Fin 1))
      = (Finset.univ : Finset (Fin 1024)).fold max cNegInf (fun s => g (ix2 s (0 : Fin 1))) := by
  refine (Cert.Column.shapeCast_a_a1_apply _ shapeCasts_S1_S1x1 (0 : Fin 1) (0 : Fin 1)).trans ?_
  refine (Ideal.multiReduction_maximumf_single g 0xFF800000#32 reduces_S1024x1_S1 (.inl rfl) rfl (ix1 (0 : Fin 1))).trans ?_
  refine congrArg (fun f => (Finset.univ : Finset (Fin 1024)).fold max cNegInf f) (funext fun (s : Fin 1024) => ?_)
  exact congrArg g (lift_col s)

theorem maxAll_apply (y : FVec Ideal S1024x64 .f32) :
    maxAll y (ix2 (0 : Fin 1) (0 : Fin 1))
      = (Finset.univ : Finset (Fin 1024)).fold max cNegInf (fun s => (Finset.univ : Finset (Fin 64)).fold max cNegInf (fun m => y (ix2 s m))) := by
  unfold maxAll
  refine (colMax_apply (maxCol y)).trans ?_
  exact congrArg (fun f => (Finset.univ : Finset (Fin 1024)).fold max cNegInf f) (funext fun (s : Fin 1024) => maxCol_apply y s)

/-- A 1 × 1 array spread over 1024 × 64 reads its one entry everywhere. -/
theorem spread11_apply (v : FVec Ideal S1x1 .f32) (s : Fin 1024) (m : Fin 64) :
    broadcastTo S1024x64 v broadcasts_S1x1_S1024x64 (ix2 s m) = v (ix2 (0 : Fin 1) (0 : Fin 1)) :=
  broadcastTo_apply v broadcasts_S1x1_S1024x64 (ix2 s m) (ix2 (0 : Fin 1) (0 : Fin 1)) (fun a => by
    match a with
    | ⟨0, _⟩ => rfl
    | ⟨1, _⟩ => rfl)

/-! ## The features -/

theorem qFeat_apply (x0 : Vec Ideal S1x1x1024x64 .f32) (x3 : Vec Ideal S64x64 .f32) (s : Fin 1024) (m : Fin 64) :
    qFeat x0 x3 (ix2 s m) = featQ (blk x0) (pmat x3) s m := by
  show Ideal.exp (proj (scaled (rows x0)) (truncf .bf16 x3 bitsLt_bf16_f32) (ix2 s m)
        - broadcastTo S1024x64 (sqCol (rows x0)) broadcasts_S1024x1_S1024x64 (ix2 s m)
        - broadcastTo S1024x64 (maxCol (proj (scaled (rows x0)) (truncf .bf16 x3 bitsLt_bf16_f32))) broadcasts_S1024x1_S1024x64 (ix2 s m))
      + Ideal.ofBits .f32 0x38D1B717#32 = _
  rw [Cert.Column.broadcastTo_a1_ab_apply, Cert.Column.broadcastTo_a1_ab_apply, proj_apply, sqCol_apply, maxCol_apply]
  unfold featQ rowMax
  refine congrArg (fun t => Ideal.exp (dash (blk x0) (pmat x3) s m - diag (blk x0) s - t) + cEps) ?_
  exact congrArg (fun f => (Finset.univ : Finset (Fin 64)).fold max cNegInf f) (funext fun m' => proj_apply x0 x3 s m')

theorem kFeat_apply (x1 : Vec Ideal S1x1x1024x64 .f32) (x3 : Vec Ideal S64x64 .f32) (s : Fin 1024) (m : Fin 64) :
    kFeat x1 x3 (ix2 s m) = featK (blk x1) (pmat x3) s m := by
  show Ideal.exp (proj (scaled (rows x1)) (truncf .bf16 x3 bitsLt_bf16_f32) (ix2 s m)
        - broadcastTo S1024x64 (sqCol (rows x1)) broadcasts_S1024x1_S1024x64 (ix2 s m)
        - broadcastTo S1024x64 (maxAll (proj (scaled (rows x1)) (truncf .bf16 x3 bitsLt_bf16_f32))) broadcasts_S1x1_S1024x64 (ix2 s m))
      + Ideal.ofBits .f32 0x38D1B717#32 = _
  rw [Cert.Column.broadcastTo_a1_ab_apply, spread11_apply, proj_apply, sqCol_apply, maxAll_apply]
  unfold featK allMax rowMax
  refine congrArg (fun t => Ideal.exp (dash (blk x1) (pmat x3) s m - diag (blk x1) s - t) + cEps) ?_
  exact congrArg (fun f => (Finset.univ : Finset (Fin 1024)).fold max cNegInf f) (funext fun s' =>
    congrArg (fun f => (Finset.univ : Finset (Fin 64)).fold max cNegInf f) (funext fun m' => proj_apply x1 x3 s' m'))

end Cert.KFeat

end
-- ==== Proof.KValue.lean ====
/- A chunk's stored block is the specification's chunked value.

   If a chunk's operands are the specification's query features, key features, augmented values and running state at that
   chunk's rows, then the block it stores is `chunked` at those rows, and the state it leaves is the state plus the chunk's update. -/
import proofs.«170563_j12987981103117_2_alg».proof.Proof.KChunk
import proofs.«170563_j12987981103117_2_alg».proof.Proof.Spec

noncomputable section

namespace Cert.KValue

open Idealize.ShloMosaic Idealize.ShloMosaic.ValueIdx Cert.KernelIdeal Cert.KernelIdeal.Gen

open Cert.KChunk Cert.Spec

theorem combined_value (c : Fin 4) (q k : FVec Ideal S256x64 .bf16) (va : FVec Ideal S256x65 .bf16) (st : FVec Ideal S64x65 .f32)
    (fq fk v : Mat 1024 64)
    (hq : ∀ (r : Fin 256) (m : Fin 64), q (ix2 r m) = fq (row c r) m)
    (hk : ∀ (r : Fin 256) (m : Fin 64), k (ix2 r m) = fk (row c r) m)
    (hv : ∀ (r : Fin 256) (j : Fin 65), va (ix2 r j) = vaug v (row c r) j)
    (hst : ∀ (m : Fin 64) (j : Fin 65), st (ix2 m j) = state fk v c m j) (r : Fin 256) (j : Fin 65) :
    combined k0_pay12 q k va st (ix2 r j) = comb fq fk v c r j := by
  rw [combined_apply]
  unfold comb
  refine congrArg₂ (· + ·) (Finset.sum_congr rfl fun m _ => by rw [hq, hst])
    (Finset.sum_congr rfl fun r' _ => ?_)
  rw [hv]
  refine congrArg (· * vaug v (row c r') j) ?_
  by_cases h : r' ≤ r
  · rw [if_pos h, if_pos h]; exact Finset.sum_congr rfl fun m _ => by rw [hq, hk]
  · rw [if_neg h, if_neg h]

/-- The stored block of a chunk at (0, 0, r, d). -/
theorem chunk_value (c : Fin 4) (q k : FVec Ideal S256x64 .bf16) (va : FVec Ideal S256x65 .bf16) (st : FVec Ideal S64x65 .f32)
    (fq fk v : Mat 1024 64)
    (hq : ∀ (r : Fin 256) (m : Fin 64), q (ix2 r m) = fq (row c r) m)
    (hk : ∀ (r : Fin 256) (m : Fin 64), k (ix2 r m) = fk (row c r) m)
    (hv : ∀ (r : Fin 256) (j : Fin 65), va (ix2 r j) = vaug v (row c r) j)
    (hst : ∀ (m : Fin 64) (j : Fin 65), st (ix2 m j) = state fk v c m j) (r : Fin 256) (d : Fin 64) :
    asBlock (normalised (combined k0_pay12 q k va st)) (ix4 (0 : Fin 1) (0 : Fin 1) r d) = chunked fq fk v c r d := by
  rw [chunk_apply, combined_value c q k va st fq fk v hq hk hv hst, combined_value c q k va st fq fk v hq hk hv hst]
  rfl

/-- The state a chunk leaves. -/
theorem grown_value (c : Fin 4) (k : FVec Ideal S256x64 .bf16) (va : FVec Ideal S256x65 .bf16) (st : FVec Ideal S64x65 .f32)
    (fk v : Mat 1024 64)
    (hk : ∀ (r : Fin 256) (m : Fin 64), k (ix2 r m) = fk (row c r) m)
    (hv : ∀ (r : Fin 256) (j : Fin 65), va (ix2 r j) = vaug v (row c r) j)
    (hst : ∀ (m : Fin 64) (j : Fin 65), st (ix2 m j) = state fk v c m j) (m : Fin 64) (j : Fin 65) :
    grown k va st (ix2 m j) = state fk v c m j + upd fk v c m j := by
  rw [grown_apply, hst]
  unfold upd
  exact congrArg (_ + ·) (Finset.sum_congr rfl fun r' _ => by rw [hk, hv])

end Cert.KValue

end
-- ==== Proof.KRun.lean ====
/- What the body leaves in the output window, as the specification's chunked attention of the three input blocks.

   The body keeps the query features, the key features and the augmented values (the values with a 65th column of ones) in three
   scratch buffers, each written once and then read back 256 rows at a time, and the running state in a fourth, rewritten after
   every chunk.  A load of rows o … o+255 of a buffer written whole reads those rows of what was written; the augmented values are
   two writes (columns 0–63 and column 64) read back together.  With the loads resolved, each of the four stored blocks is one
   chunk's value, and the window as a whole is `chunked` at (row / 256, row mod 256). -/
import proofs.«170563_j12987981103117_2_alg».proof.Proof.Gen.KernelIdeal.Frame
import proofs.«170563_j12987981103117_2_alg».proof.Proof.KFeat
import proofs.«170563_j12987981103117_2_alg».proof.Proof.KValue
import Idealize.ShloMosaic.Lib.Pipeline.FrameBody

set_option maxRecDepth 16384

noncomputable section

namespace Cert.KRun

open Idealize.ShloMosaic Idealize.ShloMosaic.ValueIdx Cert.KernelIdeal Cert.KernelIdeal.Gen

open Cert.KChunk Cert.KFeat Cert.KValue Cert.Spec

/-! ## Loads -/

section Loads

variable {κ : Kind} {sp : Space}

/-- A whole 1 × 1 × 1024 × 64 buffer read back whole. -/
theorem whole_load4 (M : Memref sig .tc .vmem S1x1x1024x64 .f32) (hM : M.IsWhole) (X : Vec Ideal S1x1x1024x64 .f32) :
    View.readAt (Elt Ideal) M.view
      (Rect.unit ![0, 0, 0, 0] S1x1x1024x64.size inb_S1x1x1024x64_S1x1x1024x64_0_0_0_0).toLoadRect (hM.unread X) = X := by
  rw [View.readAt_eq_ld, hM.read_unread]
  exact View.ld_unit_zero (by funext a; fin_cases a <;> rfl) _ X

/-- A whole 64 × 64 buffer read back whole. -/
theorem whole_load2 (M : Memref sig .tc .vmem S64x64 .f32) (hM : M.IsWhole) (X : Vec Ideal S64x64 .f32) :
    View.readAt (Elt Ideal) M.view (Rect.unit ![0, 0] S64x64.size inb_S64x64_S64x64_0_0).toLoadRect (hM.unread X) = X := by
  rw [View.readAt_eq_ld, hM.read_unread]
  exact View.ld_unit_zero (by funext a; fin_cases a <;> rfl) _ X

/-- Rows o … o+255 of a 1024 × 64 buffer written whole. -/
theorem rows_load (v : View sig κ sp S1024x64 .bf16) (Pl : FVec Ideal S1024x64 .bf16) (o : Nat) (ho : o + 256 ≤ 1024)
    (inb : ∀ a, (![o, 0] : Fin 2 → Nat) a + S256x64.size a ≤ S1024x64.size a) (r : Fin 256) (m : Fin 64) :
    v.readCov (Val := Elt Ideal) [⟨Rect.unit (s := S1024x64) ![0, 0] S1024x64.size inb_S1024x64_S1024x64_0_0, Pl⟩]
        (Rect.unit (s := S1024x64) ![o, 0] S256x64.size inb).toLoadRect (ix2 r m)
      = Pl (ix2 (⟨o + r.val, by have := r.isLt; omega⟩ : Fin 1024) m) := by
  refine (congrFun (View.readCov_eq_canon' v _ _) _).trans ?_
  rw [View.canon_unit_zero (by funext a; fin_cases a <;> rfl)]
  refine congrArg Pl (funext fun a => Fin.ext ?_)
  match a with
  | ⟨0, _⟩ => show o + 1 * r.val = o + r.val; omega
  | ⟨1, _⟩ => show 0 + 1 * m.val = m.val; omega

/-- The literal one, in the 16-bit format. -/
theorem one_bf16 : Ideal.ofBits .bf16 0x3F80#16 = 1 := by
  simp [Ideal.ofBits, Ideal.ieee]
  rw [← EReal.coe_mul]
  norm_num

theorem pay9_apply (x2 : Vec Ideal S1x1x1024x64 .f32) (s : Fin 1024) (d : Fin 64) :
    k0_pay9 (k0_pay4 x2) (ix2 s d) = blk x2 s d := by
  unfold k0_pay9 k0_pay4
  exact (congrFun (shapeCast_self _ _) _).trans (rows_apply x2 s d)

theorem pay10_apply (s : Fin 1024) : k0_pay10 (F := Ideal) (ix2 s (0 : Fin 1)) = 1 := by
  unfold k0_pay10
  exact (congrFun (shapeCast_self _ _) _).trans one_bf16

/-- Rows o … o+255 of the augmented values: columns 0–63 from one write, column 64 (ones) from another. -/
theorem vaug_load (v : View sig κ sp S1024x65 .bf16) (x2 : Vec Ideal S1x1x1024x64 .f32) (o : Nat) (ho : o + 256 ≤ 1024)
    (inb : ∀ a, (![o, 0] : Fin 2 → Nat) a + S256x65.size a ≤ S1024x65.size a) (r : Fin 256) (j : Fin 65) :
    v.readCov (Val := Elt Ideal) [⟨Rect.unit (s := S1024x65) ![0, 64] S1024x1.size inb_S1024x65_S1024x1_0_64, k0_pay10 (F := Ideal)⟩,
          ⟨Rect.unit (s := S1024x65) ![0, 0] S1024x64.size inb_S1024x65_S1024x64_0_0, k0_pay9 (k0_pay4 x2)⟩]
        (Rect.unit (s := S1024x65) ![o, 0] S256x65.size inb).toLoadRect (ix2 r j)
      = vaug (blk x2) (⟨o + r.val, by have := r.isLt; omega⟩ : Fin 1024) j := by
  have hlt : o + r.val < 1024 := by have := r.isLt; omega
  refine (congrFun (View.readCov_eq_canon' v _ _) _).trans ?_
  have hidx : (Rect.unit (s := S1024x65) ![o, 0] S256x65.size inb).toLoadRect.idx (ix2 r j) = ix2 (⟨o + r.val, hlt⟩ : Fin 1024) j :=
    funext fun a => Fin.ext (by
      match a with
      | ⟨0, _⟩ => show o + 1 * r.val = o + r.val; omega
      | ⟨1, _⟩ => show 0 + 1 * j.val = j.val; omega)
  refine (congrArg (View.canon _) hidx).trans ?_
  unfold vaug
  by_cases hj : j.val < 64
  · rw [dif_pos hj, View.canon_cons_of_not_mem _ _ (by
      rw [Rect.mem_set_unit]; intro h
      have h1 := (h (1 : Fin 2)).1
      have : (64 : Nat) ≤ j.val := h1
      omega)]
    have he : ix2 (⟨o + r.val, hlt⟩ : Fin 1024) j
        = (Rect.unit (s := S1024x65) ![0, 0] S1024x64.size inb_S1024x65_S1024x64_0_0).emb (ix2 (⟨o + r.val, hlt⟩ : Fin 1024) (⟨j.val, hj⟩ : Fin 64)) :=
      funext fun a => Fin.ext (by
        match a with
        | ⟨0, _⟩ => show o + r.val = 0 + 1 * (o + r.val); omega
        | ⟨1, _⟩ => show j.val = 0 + 1 * j.val; omega)
    rw [he, View.canon_cons_emb]
    exact pay9_apply x2 _ _
  · rw [dif_neg hj]
    have hj64 : j.val = 64 := by have := j.isLt; omega
    have he : ix2 (⟨o + r.val, hlt⟩ : Fin 1024) j
        = (Rect.unit (s := S1024x65) ![0, 64] S1024x1.size inb_S1024x65_S1024x1_0_64).emb (ix2 (⟨o + r.val, hlt⟩ : Fin 1024) (0 : Fin 1)) :=
      funext fun a => Fin.ext (by
        match a with
        | ⟨0, _⟩ => show o + r.val = 0 + 1 * (o + r.val); omega
        | ⟨1, _⟩ => show j.val = 64 + 1 * 0; omega)
    rw [he, View.canon_cons_emb]
    exact pay10_apply _

/-- Row o + r is row r of chunk c when o = 256 c. -/
theorem row_eq (c : Fin 4) (o : Nat) (hc : o = 256 * c.val) (r : Fin 256) (h : o + r.val < 1024) :
    (⟨o + r.val, h⟩ : Fin 1024) = row c r := Fin.ext (by show o + r.val = 256 * c.val + r.val; omega)

end Loads

/-! ## The three feature buffers, read back by chunk -/

section Buffers

variable {κ : Kind} {sp : Space}
variable (M2 : Memref sig .tc .vmem S1x1x1024x64 .f32) (hM2 : M2.IsWhole) (M3 : Memref sig .tc .vmem S1x1x1024x64 .f32) (hM3 : M3.IsWhole)
  (M4 : Memref sig .tc .vmem S1x1x1024x64 .f32) (hM4 : M4.IsWhole) (M5 : Memref sig .tc .vmem S64x64 .f32) (hM5 : M5.IsWhole)
  (x0 x1 x2 : Vec Ideal S1x1x1024x64 .f32) (x3 : Vec Ideal S64x64 .f32)

theorem q_rows (v : View sig κ sp S1024x64 .bf16) (c : Fin 4) (o : Nat) (hc : o = 256 * c.val)
    (inb : ∀ a, (![o, 0] : Fin 2 → Nat) a + S256x64.size a ≤ S1024x64.size a) (r : Fin 256) (m : Fin 64) :
    v.readCov (Val := Elt Ideal) [⟨Rect.unit (s := S1024x64) ![0, 0] S1024x64.size inb_S1024x64_S1024x64_0_0,
          k0_pay6 (View.readAt (Elt Ideal) M2.view
              (Rect.unit ![0, 0, 0, 0] S1x1x1024x64.size inb_S1x1x1024x64_S1x1x1024x64_0_0_0_0).toLoadRect (hM2.unread x0))
            (View.readAt (Elt Ideal) M5.view (Rect.unit ![0, 0] S64x64.size inb_S64x64_S64x64_0_0).toLoadRect (hM5.unread x3))⟩]
        (Rect.unit (s := S1024x64) ![o, 0] S256x64.size inb).toLoadRect (ix2 r m)
      = featQ (blk x0) (pmat x3) (row c r) m := by
  have ho : o + 256 ≤ 1024 := by have := c.isLt; omega
  rw [whole_load4, whole_load2, rows_load v _ o ho inb r m, pay6_eq, qFeat_apply, row_eq c o hc r]

theorem k_rows (v : View sig κ sp S1024x64 .bf16) (c : Fin 4) (o : Nat) (hc : o = 256 * c.val)
    (inb : ∀ a, (![o, 0] : Fin 2 → Nat) a + S256x64.size a ≤ S1024x64.size a) (r : Fin 256) (m : Fin 64) :
    v.readCov (Val := Elt Ideal) [⟨Rect.unit (s := S1024x64) ![0, 0] S1024x64.size inb_S1024x64_S1024x64_0_0,
          k0_pay8 (k0_pay3 (View.readAt (Elt Ideal) M3.view
              (Rect.unit ![0, 0, 0, 0] S1x1x1024x64.size inb_S1x1x1024x64_S1x1x1024x64_0_0_0_0).toLoadRect (hM3.unread x1)))
            (k0_pay5 (View.readAt (Elt Ideal) M5.view (Rect.unit ![0, 0] S64x64.size inb_S64x64_S64x64_0_0).toLoadRect (hM5.unread x3)))
            (k0_pay7 (View.readAt (Elt Ideal) M3.view
              (Rect.unit ![0, 0, 0, 0] S1x1x1024x64.size inb_S1x1x1024x64_S1x1x1024x64_0_0_0_0).toLoadRect (hM3.unread x1)))
            (constant S1024x64 .f32 0#32)⟩]
        (Rect.unit (s := S1024x64) ![o, 0] S256x64.size inb).toLoadRect (ix2 r m)
      = featK (blk x1) (pmat x3) (row c r) m := by
  have ho : o + 256 ≤ 1024 := by have := c.isLt; omega
  rw [whole_load4, whole_load2, rows_load v _ o ho inb r m, pay8_eq, kFeat_apply, row_eq c o hc r]

theorem v_rows (v : View sig κ sp S1024x65 .bf16) (c : Fin 4) (o : Nat) (hc : o = 256 * c.val)
    (inb : ∀ a, (![o, 0] : Fin 2 → Nat) a + S256x65.size a ≤ S1024x65.size a) (r : Fin 256) (j : Fin 65) :
    v.readCov (Val := Elt Ideal) [⟨Rect.unit (s := S1024x65) ![0, 64] S1024x1.size inb_S1024x65_S1024x1_0_64, k0_pay10 (F := Ideal)⟩,
          ⟨Rect.unit (s := S1024x65) ![0, 0] S1024x64.size inb_S1024x65_S1024x64_0_0,
            k0_pay9 (k0_pay4 (View.readAt (Elt Ideal) M4.view
              (Rect.unit ![0, 0, 0, 0] S1x1x1024x64.size inb_S1x1x1024x64_S1x1x1024x64_0_0_0_0).toLoadRect (hM4.unread x2)))⟩]
        (Rect.unit (s := S1024x65) ![o, 0] S256x65.size inb).toLoadRect (ix2 r j)
      = vaug (blk x2) (row c r) j := by
  have ho : o + 256 ≤ 1024 := by have := c.isLt; omega
  rw [whole_load4, vaug_load v x2 o ho inb r j, row_eq c o hc r]

end Buffers

/-! ## The run's named values -/

section Run

variable (c : Dev nD) (i : grid0.Coords) (arg2 : Memref sig .tc .vmem S1x1x1024x64 .f32) (harg2 : arg2.IsWhole) (arg3 : Memref sig .tc .vmem S1x1x1024x64 .f32) (harg3 : arg3.IsWhole) (arg4 : Memref sig .tc .vmem S1x1x1024x64 .f32) (harg4 : arg4.IsWhole) (arg5 : Memref sig .tc .vmem S64x64 .f32) (harg5 : arg5.IsWhole) (arg6 : Memref sig .tc .vmem S1x1x1024x64 .f32) (harg6 : arg6.IsWhole) (arg7 : Memref sig .tc .vmem S1024x64 .bf16) (harg7 : arg7.IsWhole) (arg8 : Memref sig .tc .vmem S1024x64 .bf16) (harg8 : arg8.IsWhole) (arg9 : Memref sig .tc .vmem S1024x65 .bf16) (harg9 : arg9.IsWhole) (arg10 : Memref sig .tc .vmem S64x65 .f32) (harg10 : arg10.IsWhole)
    (x0 : Vec Ideal S1x1x1024x64 .f32) (x1 : Vec Ideal S1x1x1024x64 .f32) (x2 : Vec Ideal S1x1x1024x64 .f32) (x3 : Vec Ideal S64x64 .f32)

local notation "fq" => featQ (blk x0) (pmat x3)
local notation "fk" => featK (blk x1) (pmat x3)
local notation "vv" => blk x2

theorem q0 (r : Fin 256) (m : Fin 64) : kernelRun0_A.sl.v69 (F := Ideal) c arg2 harg2 arg5 harg5 arg7 x0 x3 (ix2 r m) = fq (row 0 r) m :=
  q_rows arg2 harg2 arg5 harg5 x0 x3 arg7.view 0 0 rfl _ r m
theorem k0 (r : Fin 256) (m : Fin 64) : kernelRun0_A.sl.v70 (F := Ideal) c arg3 harg3 arg5 harg5 arg8 x1 x3 (ix2 r m) = fk (row 0 r) m :=
  k_rows arg3 harg3 arg5 harg5 x1 x3 arg8.view 0 0 rfl _ r m
theorem va0 (r : Fin 256) (j : Fin 65) : kernelRun0_A.sl.v71 (F := Ideal) c arg4 harg4 arg9 x2 (ix2 r j) = vaug vv (row 0 r) j :=
  v_rows arg4 harg4 x2 arg9.view 0 0 rfl _ r j
theorem q1 (r : Fin 256) (m : Fin 64) : kernelRun0_A.sl.v96 (F := Ideal) c arg2 harg2 arg5 harg5 arg7 x0 x3 (ix2 r m) = fq (row 1 r) m :=
  q_rows arg2 harg2 arg5 harg5 x0 x3 arg7.view 1 256 rfl _ r m
theorem k1 (r : Fin 256) (m : Fin 64) : kernelRun0_A.sl.v97 (F := Ideal) c arg3 harg3 arg5 harg5 arg8 x1 x3 (ix2 r m) = fk (row 1 r) m :=
  k_rows arg3 harg3 arg5 harg5 x1 x3 arg8.view 1 256 rfl _ r m
theorem va1 (r : Fin 256) (j : Fin 65) : kernelRun0_A.sl.v98 (F := Ideal) c arg4 harg4 arg9 x2 (ix2 r j) = vaug vv (row 1 r) j :=
  v_rows arg4 harg4 x2 arg9.view 1 256 rfl _ r j
theorem q2 (r : Fin 256) (m : Fin 64) : kernelRun0_A.sl.v123 (F := Ideal) c arg2 harg2 arg5 harg5 arg7 x0 x3 (ix2 r m) = fq (row 2 r) m :=
  q_rows arg2 harg2 arg5 harg5 x0 x3 arg7.view 2 512 rfl _ r m
theorem k2 (r : Fin 256) (m : Fin 64) : kernelRun0_A.sl.v124 (F := Ideal) c arg3 harg3 arg5 harg5 arg8 x1 x3 (ix2 r m) = fk (row 2 r) m :=
  k_rows arg3 harg3 arg5 harg5 x1 x3 arg8.view 2 512 rfl _ r m
theorem va2 (r : Fin 256) (j : Fin 65) : kernelRun0_A.sl.v125 (F := Ideal) c arg4 harg4 arg9 x2 (ix2 r j) = vaug vv (row 2 r) j :=
  v_rows arg4 harg4 x2 arg9.view 2 512 rfl _ r j
theorem q3 (r : Fin 256) (m : Fin 64) : kernelRun0_A.sl.v150 (F := Ideal) c arg2 harg2 arg5 harg5 arg7 x0 x3 (ix2 r m) = fq (row 3 r) m :=
  q_rows arg2 harg2 arg5 harg5 x0 x3 arg7.view 3 768 rfl _ r m
theorem k3 (r : Fin 256) (m : Fin 64) : kernelRun0_A.sl.v151 (F := Ideal) c arg3 harg3 arg5 harg5 arg8 x1 x3 (ix2 r m) = fk (row 3 r) m :=
  k_rows arg3 harg3 arg5 harg5 x1 x3 arg8.view 3 768 rfl _ r m
theorem va3 (r : Fin 256) (j : Fin 65) : kernelRun0_A.sl.v152 (F := Ideal) c arg4 harg4 arg9 x2 (ix2 r j) = vaug vv (row 3 r) j :=
  v_rows arg4 harg4 x2 arg9.view 3 768 rfl _ r j

/-- The state before the first chunk is zero. -/
theorem s0 (m : Fin 64) (j : Fin 65) : kernelRun0_A.sl.v72 (F := Ideal) c arg10 (ix2 m j) = state fk vv 0 m j := by
  have e : kernelRun0_A.sl.v72 (F := Ideal) c arg10 = k0_pay11 (F := Ideal) := by
    unfold kernelRun0_A.sl.v72 kernelRun0_A.sl.HS3_1
    exact View.readCov_cons_toLoadRect _ _ _ _
  rw [e]; unfold k0_pay11
  exact (congrFun (shapeCast_self _ _) _).trans Ideal.ofBits_zero_f32

/-- The state before each later chunk is the one before plus the chunk's update. -/
theorem s1 (m : Fin 64) (j : Fin 65) : kernelRun0_A.sl.v99 (F := Ideal) c arg3 harg3 arg4 harg4 arg5 harg5 arg8 arg9 arg10 x1 x2 x3 (ix2 m j) = state fk vv 1 m j := by
  have e : kernelRun0_A.sl.v99 (F := Ideal) c arg3 harg3 arg4 harg4 arg5 harg5 arg8 arg9 arg10 x1 x2 x3
      = k0_pay14 (kernelRun0_A.sl.v70 c arg3 harg3 arg5 harg5 arg8 x1 x3) (kernelRun0_A.sl.v71 c arg4 harg4 arg9 x2) (kernelRun0_A.sl.v72 c arg10) := by
    unfold kernelRun0_A.sl.v99 kernelRun0_A.sl.HS3_2
    exact View.readCov_cons_toLoadRect _ _ _ _
  rw [e, pay14_eq, grown_value 0 _ _ _ fk vv (k0 c arg3 harg3 arg5 harg5 arg8 x1 x3) (va0 c arg4 harg4 arg9 x2) (s0 c arg10 x1 x2 x3) m j]
  rfl

theorem s2 (m : Fin 64) (j : Fin 65) : kernelRun0_A.sl.v126 (F := Ideal) c arg3 harg3 arg4 harg4 arg5 harg5 arg8 arg9 arg10 x1 x2 x3 (ix2 m j) = state fk vv 2 m j := by
  have e : kernelRun0_A.sl.v126 (F := Ideal) c arg3 harg3 arg4 harg4 arg5 harg5 arg8 arg9 arg10 x1 x2 x3
      = k0_pay17 (kernelRun0_A.sl.v97 c arg3 harg3 arg5 harg5 arg8 x1 x3) (kernelRun0_A.sl.v98 c arg4 harg4 arg9 x2) (kernelRun0_A.sl.v99 c arg3 harg3 arg4 harg4 arg5 harg5 arg8 arg9 arg10 x1 x2 x3) := by
    unfold kernelRun0_A.sl.v126 kernelRun0_A.sl.HS3_3
    exact View.readCov_cons_toLoadRect _ _ _ _
  rw [e, pay17_eq, grown_value 1 _ _ _ fk vv (k1 c arg3 harg3 arg5 harg5 arg8 x1 x3) (va1 c arg4 harg4 arg9 x2) (s1 c arg3 harg3 arg4 harg4 arg5 harg5 arg8 arg9 arg10 x1 x2 x3) m j]
  rfl

theorem s3 (m : Fin 64) (j : Fin 65) : kernelRun0_A.sl.v153 (F := Ideal) c arg3 harg3 arg4 harg4 arg5 harg5 arg8 arg9 arg10 x1 x2 x3 (ix2 m j) = state fk vv 3 m j := by
  have e : kernelRun0_A.sl.v153 (F := Ideal) c arg3 harg3 arg4 harg4 arg5 harg5 arg8 arg9 arg10 x1 x2 x3
      = k0_pay20 (kernelRun0_A.sl.v124 c arg3 harg3 arg5 harg5 arg8 x1 x3) (kernelRun0_A.sl.v125 c arg4 harg4 arg9 x2) (kernelRun0_A.sl.v126 c arg3 harg3 arg4 harg4 arg5 harg5 arg8 arg9 arg10 x1 x2 x3) := by
    unfold kernelRun0_A.sl.v153 kernelRun0_A.sl.HS3_4
    exact View.readCov_cons_toLoadRect _ _ _ _
  rw [e, pay20_eq, grown_value 2 _ _ _ fk vv (k2 c arg3 harg3 arg5 harg5 arg8 x1 x3) (va2 c arg4 harg4 arg9 x2) (s2 c arg3 harg3 arg4 harg4 arg5 harg5 arg8 arg9 arg10 x1 x2 x3) m j]
  rfl

/-! ## The four stored blocks -/

theorem p0 (r : Fin 256) (d : Fin 64) :
    k0_pay13 k0_pay12 (kernelRun0_A.sl.v69 (F := Ideal) c arg2 harg2 arg5 harg5 arg7 x0 x3) (kernelRun0_A.sl.v70 c arg3 harg3 arg5 harg5 arg8 x1 x3) (kernelRun0_A.sl.v71 c arg4 harg4 arg9 x2) (kernelRun0_A.sl.v72 c arg10) (ix4 (0 : Fin 1) (0 : Fin 1) r d)
      = chunked fq fk vv 0 r d := by
  rw [pay13_eq]
  exact chunk_value 0 _ _ _ _ fq fk vv (q0 c arg2 harg2 arg5 harg5 arg7 x0 x3) (k0 c arg3 harg3 arg5 harg5 arg8 x1 x3) (va0 c arg4 harg4 arg9 x2) (s0 c arg10 x1 x2 x3) r d

theorem p1 (r : Fin 256) (d : Fin 64) :
    k0_pay16 k0_pay12 (kernelRun0_A.sl.v96 (F := Ideal) c arg2 harg2 arg5 harg5 arg7 x0 x3) (kernelRun0_A.sl.v97 c arg3 harg3 arg5 harg5 arg8 x1 x3) (kernelRun0_A.sl.v98 c arg4 harg4 arg9 x2) (kernelRun0_A.sl.r_4 c arg2 harg2 arg3 harg3 arg4 harg4 arg5 harg5 arg7 arg8 arg9 arg10 x0 x1 x2 x3) (ix4 (0 : Fin 1) (0 : Fin 1) r d)
      = chunked fq fk vv 1 r d := by
  have e : kernelRun0_A.sl.r_4 (F := Ideal) c arg2 harg2 arg3 harg3 arg4 harg4 arg5 harg5 arg7 arg8 arg9 arg10 x0 x1 x2 x3 = k0_pay15 (kernelRun0_A.sl.v96 c arg2 harg2 arg5 harg5 arg7 x0 x3) (kernelRun0_A.sl.v99 c arg3 harg3 arg4 harg4 arg5 harg5 arg8 arg9 arg10 x1 x2 x3) := rfl
  rw [e, pay16_eq]
  exact chunk_value 1 _ _ _ _ fq fk vv (q1 c arg2 harg2 arg5 harg5 arg7 x0 x3) (k1 c arg3 harg3 arg5 harg5 arg8 x1 x3) (va1 c arg4 harg4 arg9 x2) (s1 c arg3 harg3 arg4 harg4 arg5 harg5 arg8 arg9 arg10 x1 x2 x3) r d

theorem p2 (r : Fin 256) (d : Fin 64) :
    k0_pay19 (kernelRun0_A.sl.r_5 (F := Ideal) c arg2 harg2 arg3 harg3 arg4 harg4 arg5 harg5 arg7 arg8 arg9 arg10 x0 x1 x2 x3) (ix4 (0 : Fin 1) (0 : Fin 1) r d) = chunked fq fk vv 2 r d := by
  have e : kernelRun0_A.sl.r_5 (F := Ideal) c arg2 harg2 arg3 harg3 arg4 harg4 arg5 harg5 arg7 arg8 arg9 arg10 x0 x1 x2 x3
      = k0_pay18 k0_pay12 (kernelRun0_A.sl.v123 c arg2 harg2 arg5 harg5 arg7 x0 x3) (kernelRun0_A.sl.v124 c arg3 harg3 arg5 harg5 arg8 x1 x3) (kernelRun0_A.sl.v125 c arg4 harg4 arg9 x2) (kernelRun0_A.sl.v126 c arg3 harg3 arg4 harg4 arg5 harg5 arg8 arg9 arg10 x1 x2 x3) := rfl
  rw [e, pay19_eq]
  exact chunk_value 2 _ _ _ _ fq fk vv (q2 c arg2 harg2 arg5 harg5 arg7 x0 x3) (k2 c arg3 harg3 arg5 harg5 arg8 x1 x3) (va2 c arg4 harg4 arg9 x2) (s2 c arg3 harg3 arg4 harg4 arg5 harg5 arg8 arg9 arg10 x1 x2 x3) r d

theorem p3 (r : Fin 256) (d : Fin 64) :
    k0_pay1 (kernelRun0_A.sl.r_6 (F := Ideal) c arg2 harg2 arg3 harg3 arg4 harg4 arg5 harg5 arg7 arg8 arg9 arg10 x0 x1 x2 x3) (ix4 (0 : Fin 1) (0 : Fin 1) r d) = chunked fq fk vv 3 r d := by
  have e : kernelRun0_A.sl.r_6 (F := Ideal) c arg2 harg2 arg3 harg3 arg4 harg4 arg5 harg5 arg7 arg8 arg9 arg10 x0 x1 x2 x3
      = k0_pay21 k0_pay12 (kernelRun0_A.sl.v150 c arg2 harg2 arg5 harg5 arg7 x0 x3) (kernelRun0_A.sl.v151 c arg3 harg3 arg5 harg5 arg8 x1 x3) (kernelRun0_A.sl.v152 c arg4 harg4 arg9 x2) (kernelRun0_A.sl.v153 c arg3 harg3 arg4 harg4 arg5 harg5 arg8 arg9 arg10 x1 x2 x3) := rfl
  rw [e, pay1_eq]
  exact chunk_value 3 _ _ _ _ fq fk vv (q3 c arg2 harg2 arg5 harg5 arg7 x0 x3) (k3 c arg3 harg3 arg5 harg5 arg8 x1 x3) (va3 c arg4 harg4 arg9 x2) (s3 c arg3 harg3 arg4 harg4 arg5 harg5 arg8 arg9 arg10 x1 x2 x3) r d

end Run

/-! ## The window -/

/-- The window's contents as one function of its index: row s of the head is row s mod 256 of chunk s / 256. -/
def window (fq' fk' vv' : Mat 1024 64) : S1x1x1024x64.Idx → EReal := fun y =>
  chunked fq' fk' vv' (⟨(y 2).val / 256, by have : (y 2).val < 1024 := (y 2).isLt; omega⟩ : Fin 4)
    (⟨(y 2).val % 256, by omega⟩ : Fin 256) (⟨(y 3).val, (y 3).isLt⟩ : Fin 64)

/-- A block stored at rows 256 c … 256 c + 255 that holds chunk c's value agrees with `window` under its rectangle. -/
theorem piece_ok (fq' fk' vv' : Mat 1024 64) (cc : Fin 4) (o : Nat) (hc : o = 256 * cc.val)
    (inb : ∀ a, (![0, 0, o, 0] : Fin 4 → Nat) a + S1x1x256x64.size a ≤ S1x1x1024x64.size a)
    (w : FVec Ideal S1x1x256x64 .f32) (hw : ∀ (r : Fin 256) (d : Fin 64), w (ix4 (0 : Fin 1) (0 : Fin 1) r d) = chunked fq' fk' vv' cc r d)
    (x : (Rect.unit (s := S1x1x1024x64) ![0, 0, o, 0] S1x1x256x64.size inb).shape.Idx) :
    w x = window fq' fk' vv' ((Rect.unit (s := S1x1x1024x64) ![0, 0, o, 0] S1x1x256x64.size inb).emb x) := by
  obtain ⟨a, b, r, d, rfl⟩ : ∃ (a : Fin 1) (b : Fin 1) (r : Fin 256) (d : Fin 64), x = ix4 a b r d :=
    ⟨x 0, x 1, x 2, x 3, eq_ix4 (n0 := 1) (n1 := 1) (n2 := 256) (n3 := 64) x⟩
  obtain rfl : a = 0 := Subsingleton.elim _ _
  obtain rfl : b = 0 := Subsingleton.elim _ _
  rw [hw]
  unfold window
  have hr := r.isLt; have hcc := cc.isLt
  have e1 : (⟨((Rect.unit (s := S1x1x1024x64) ![0, 0, o, 0] S1x1x256x64.size inb).emb (ix4 (0 : Fin 1) (0 : Fin 1) r d) 2).val / 256,
      by have : ((Rect.unit (s := S1x1x1024x64) ![0, 0, o, 0] S1x1x256x64.size inb).emb (ix4 (0 : Fin 1) (0 : Fin 1) r d) 2).val < 1024 :=
           ((Rect.unit (s := S1x1x1024x64) ![0, 0, o, 0] S1x1x256x64.size inb).emb (ix4 (0 : Fin 1) (0 : Fin 1) r d) 2).isLt
         omega⟩ : Fin 4) = cc :=
    Fin.ext (by show (o + 1 * r.val) / 256 = cc.val; omega)
  have e2 : (⟨((Rect.unit (s := S1x1x1024x64) ![0, 0, o, 0] S1x1x256x64.size inb).emb (ix4 (0 : Fin 1) (0 : Fin 1) r d) 2).val % 256,
      by omega⟩ : Fin 256) = r :=
    Fin.ext (by show (o + 1 * r.val) % 256 = r.val; omega)
  have e3 : (⟨((Rect.unit (s := S1x1x1024x64) ![0, 0, o, 0] S1x1x256x64.size inb).emb (ix4 (0 : Fin 1) (0 : Fin 1) r d) 3).val,
      ((Rect.unit (s := S1x1x1024x64) ![0, 0, o, 0] S1x1x256x64.size inb).emb (ix4 (0 : Fin 1) (0 : Fin 1) r d) 3).isLt⟩ : Fin 64) = d :=
    Fin.ext (by show 0 + 1 * d.val = d.val; omega)
  rw [e1, e2, e3]

/-- What the body leaves in the output window: the chunked attention of the three input blocks. -/
theorem out_eq (c : Dev nD) (i : grid0.Coords) (arg2 : Memref sig .tc .vmem S1x1x1024x64 .f32) (harg2 : arg2.IsWhole) (arg3 : Memref sig .tc .vmem S1x1x1024x64 .f32) (harg3 : arg3.IsWhole) (arg4 : Memref sig .tc .vmem S1x1x1024x64 .f32) (harg4 : arg4.IsWhole) (arg5 : Memref sig .tc .vmem S64x64 .f32) (harg5 : arg5.IsWhole) (arg6 : Memref sig .tc .vmem S1x1x1024x64 .f32) (harg6 : arg6.IsWhole) (arg7 : Memref sig .tc .vmem S1024x64 .bf16) (harg7 : arg7.IsWhole) (arg8 : Memref sig .tc .vmem S1024x64 .bf16) (harg8 : arg8.IsWhole) (arg9 : Memref sig .tc .vmem S1024x65 .bf16) (harg9 : arg9.IsWhole) (arg10 : Memref sig .tc .vmem S64x65 .f32) (harg10 : arg10.IsWhole)
    (x0 : Vec Ideal S1x1x1024x64 .f32) (x1 : Vec Ideal S1x1x1024x64 .f32) (x2 : Vec Ideal S1x1x1024x64 .f32) (x3 : Vec Ideal S64x64 .f32) :
    out0_A_4 (F := Ideal) c i arg2 harg2 arg3 harg3 arg4 harg4 arg5 harg5 arg6 harg6 arg7 harg7 arg8 harg8 arg9 harg9 arg10 harg10 x0 x1 x2 x3 = window (featQ (blk x0) (pmat x3)) (featK (blk x1) (pmat x3)) (blk x2) := by
  funext y
  unfold out0_A_4
  rw [View.read_writes_junk_eq_canon]
  refine View.canon_apply_of_pieces (window (featQ (blk x0) (pmat x3)) (featK (blk x1) (pmat x3)) (blk x2)) _ ?_ y
    (cover0_A_4 c i arg2 harg2 arg3 harg3 arg4 harg4 arg5 harg5 arg6 harg6 arg7 harg7 arg8 harg8 arg9 harg9 arg10 harg10 x0 x1 x2 x3 y)
  unfold kernelRun0_A
  dsimp only
  intro p hp
  simp only [List.mem_cons, List.mem_nil_iff, or_false] at hp
  rcases hp with rfl | rfl | rfl | rfl
  · exact piece_ok _ _ _ 3 768 rfl inb_S1x1x1024x64_S1x1x256x64_0_0_768_0 _ (p3 c arg2 harg2 arg3 harg3 arg4 harg4 arg5 harg5 arg7 arg8 arg9 arg10 x0 x1 x2 x3)
  · exact piece_ok _ _ _ 2 512 rfl inb_S1x1x1024x64_S1x1x256x64_0_0_512_0 _ (p2 c arg2 harg2 arg3 harg3 arg4 harg4 arg5 harg5 arg7 arg8 arg9 arg10 x0 x1 x2 x3)
  · exact piece_ok _ _ _ 1 256 rfl inb_S1x1x1024x64_S1x1x256x64_0_0_256_0 _ (p1 c arg2 harg2 arg3 harg3 arg4 harg4 arg5 harg5 arg7 arg8 arg9 arg10 x0 x1 x2 x3)
  · exact piece_ok _ _ _ 0 0 rfl inb_S1x1x1024x64_S1x1x256x64_0_0_0_0 _ (p0 c arg2 harg2 arg3 harg3 arg4 harg4 arg5 harg5 arg7 arg8 arg9 arg10 x0 x1 x2 x3)

end Cert.KRun

end
-- ==== Proof.KFinal.lean ====
/- From blocks to the array: after the run the result array is, index by index, the chunked attention of the head the index
   lies in.

   The grid has one point per head (b, h); at that point every 1 × 1 × 1024 × 64 window sits at block (b, h, 0, 0) of its array and
   the projection's window is the whole 64 × 64 array.  So the block a point writes back is the function `attn` of the four
   argument arrays restricted to the head, the 64 blocks tile the result array, and the array ends as `attn` everywhere. -/
import proofs.«170563_j12987981103117_2_alg».proof.Proof.Gen.KernelIdeal.Value
import proofs.«170563_j12987981103117_2_alg».proof.Proof.KRun

set_option maxRecDepth 16384

noncomputable section

namespace Cert.KFinal

open Idealize.ShloMosaic Idealize.ShloMosaic.ValueIdx Cert.KernelIdeal Cert.KernelIdeal.Gen

open Cert.KFeat Cert.KRun Cert.Spec Idealize.ShloMosaic.TcCoe Idealize.SL.Sem
open Idealize.ShloMosaic.Pipeline (Dat)

/-- The coordinates of an index of the result array: batch, head, chunk, row in the chunk, column. -/
def cB (i : S4x16x1024x64.Idx) : Fin 4 := ⟨(i 0).val, (i 0).isLt⟩
def cH (i : S4x16x1024x64.Idx) : Fin 16 := ⟨(i 1).val, (i 1).isLt⟩
def cChunk (i : S4x16x1024x64.Idx) : Fin 4 := ⟨(i 2).val / 256, by have : (i 2).val < 1024 := (i 2).isLt; omega⟩
def cRow (i : S4x16x1024x64.Idx) : Fin 256 := ⟨(i 2).val % 256, by omega⟩
def cCol (i : S4x16x1024x64.Idx) : Fin 64 := ⟨(i 3).val, (i 3).isLt⟩

/-- The result array as one function of the four argument arrays. -/
def attn (A0 A1 A2 : S4x16x1024x64.Idx → EReal) (A3 : S64x64.Idx → EReal) : S4x16x1024x64.Idx → EReal := fun i =>
  chunked (featQ (head A0 (cB i) (cH i)) (mat A3)) (featK (head A1 (cB i) (cH i)) (mat A3)) (head A2 (cB i) (cH i))
    (cChunk i) (cRow i) (cCol i)

/-- The window of a point's blocks is `attn` of the arrays the blocks were cut from, at the index the window position names. -/
theorem window_eq_attn (A0 A1 A2 : S4x16x1024x64.Idx → EReal) (A3 : S64x64.Idx → EReal)
    (x0 x1 x2 : Vec Ideal S1x1x1024x64 .f32) (x3 : Vec Ideal S64x64 .f32) (b : Fin 4) (h : Fin 16)
    (h0 : ∀ (s : Fin 1024) (d : Fin 64), x0 (ix4 (0 : Fin 1) (0 : Fin 1) s d) = A0 (ix4 b h s d))
    (h1 : ∀ (s : Fin 1024) (d : Fin 64), x1 (ix4 (0 : Fin 1) (0 : Fin 1) s d) = A1 (ix4 b h s d))
    (h2 : ∀ (s : Fin 1024) (d : Fin 64), x2 (ix4 (0 : Fin 1) (0 : Fin 1) s d) = A2 (ix4 b h s d))
    (h3 : ∀ (a b' : Fin 64), x3 (ix2 a b') = A3 (ix2 a b'))
    (j : S1x1x1024x64.Idx) (i : S4x16x1024x64.Idx)
    (hi0 : (i 0).val = b.val) (hi1 : (i 1).val = h.val) (hi2 : (i 2).val = (j 2).val) (hi3 : (i 3).val = (j 3).val) :
    window (featQ (blk x0) (pmat x3)) (featK (blk x1) (pmat x3)) (blk x2) j = attn A0 A1 A2 A3 i := by
  have e0 : blk x0 = head A0 b h := funext fun s => funext fun d => h0 s d
  have e1 : blk x1 = head A1 b h := funext fun s => funext fun d => h1 s d
  have e2 : blk x2 = head A2 b h := funext fun s => funext fun d => h2 s d
  have e3 : pmat x3 = mat A3 := funext fun a => funext fun b' => h3 a b'
  have eb : cB i = b := Fin.ext hi0
  have eh : cH i = h := Fin.ext hi1
  rw [e0, e1, e2, e3]
  unfold attn
  rw [eb, eh]
  unfold window
  have ec : cChunk i = (⟨(j 2).val / 256, by have : (j 2).val < 1024 := (j 2).isLt; omega⟩ : Fin 4) :=
    Fin.ext (by show (i 2).val / 256 = (j 2).val / 256; rw [hi2])
  have er : cRow i = (⟨(j 2).val % 256, by omega⟩ : Fin 256) := Fin.ext (by show (i 2).val % 256 = (j 2).val % 256; rw [hi2])
  have ed : cCol i = (⟨(j 3).val, (j 3).isLt⟩ : Fin 64) := Fin.ext hi3
  rw [ec, er, ed]

variable (m : (ℓ : Loc nD τ sig) → Buf (Elt Ideal) ℓ) (ρ : Dev nD → PrngReg)

/-- The printed index maps, decided over the 64 grid points: the three head windows move with the result's window, whose block
    index is (b, h, 0, 0) with b < 4 and h < 16; the projection's window stays at (0, 0). -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = 0 ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 2) = 0 ∧ win0_3.index t (1 : Fin 2) = 0)
    ∧ (win0_4.index t (2 : Fin 4) = 0 ∧ win0_4.index t (3 : Fin 4) = 0 ∧ win0_4.index t (0 : Fin 4) < 4 ∧ win0_4.index t (1 : Fin 4) < 16) :=
  (by decide +kernel : ∀ t : Fin grid0.N, _)

/-- Every head is some point's. -/
theorem idx_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-- What point t writes back is block t of `attn` of the argument arrays. -/
theorem flushed_eq (c : Dev nD) (t : Fin cfg0.N) :
    (dats m 0 c).flushed 4 t
      = ((cfg0.win 4).blk t).view.read (Elt Ideal) (attn (V m c main_arg0) (V m c main_arg1) (V m c main_arg2) (V m c main_arg3)) := by
  refine (Cert.KernelIdeal.Value.flushed4_A m c t).trans ?_
  refine (congrArg ((cfg0.win 4).cut (grid0.coords t)) (out_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t))).trans ?_
  obtain ⟨⟨a0, a1, a2, a3⟩, ⟨b0, b1, b2, b3⟩, ⟨c0, c1, c2, c3⟩, ⟨d0, d1⟩, ⟨e2, e3, e0, e1⟩⟩ := idx_facts t
  funext j
  show window (featQ (blk (iblk m c 0 t)) (pmat (iblk m c 3 t))) (featK (blk (iblk m c 1 t)) (pmat (iblk m c 3 t))) (blk (iblk m c 2 t)) j
      = attn (V m c main_arg0) (V m c main_arg1) (V m c main_arg2) (V m c main_arg3) (((cfg0.win 4).blk t).view.emb j)
  have hj0 : (j 0).val < 1 := (j 0).isLt
  have hj1 : (j 1).val < 1 := (j 1).isLt
  refine window_eq_attn (V m c main_arg0) (V m c main_arg1) (V m c main_arg2) (V m c main_arg3)
    (iblk m c 0 t) (iblk m c 1 t) (iblk m c 2 t) (iblk m c 3 t) ⟨win0_4.index t (0 : Fin 4), e0⟩ ⟨win0_4.index t (1 : Fin 4), e1⟩
    ?_ ?_ ?_ ?_ j (((cfg0.win 4).blk t).view.emb j) ?_ ?_ ?_ ?_
  · intro s d
    show V m c main_arg0 (((cfg0.win 0).blk t).view.emb (ix4 (0 : Fin 1) (0 : Fin 1) s d)) = V m c main_arg0 (ix4 _ _ s d)
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 1 + 1 * 0 = win0_4.index t (1 : Fin 4); omega
    | ⟨2, _⟩ => show win0_0.index t (2 : Fin 4) * 1024 + 1 * s.val = s.val; omega
    | ⟨3, _⟩ => show win0_0.index t (3 : Fin 4) * 64 + 1 * d.val = d.val; omega
  · intro s d
    show V m c main_arg1 (((cfg0.win 1).blk t).view.emb (ix4 (0 : Fin 1) (0 : Fin 1) s d)) = V m c main_arg1 (ix4 _ _ s d)
    refine congrArg _ (funext fun a => Fin.ext ?_)
    match a with
    | ⟨0, _⟩ => show win0_1.index t (0 : Fin 4) * 1 + 1 * 0 = win0_4.index t (0 : Fin 4); omega
    | ⟨1, _⟩ => show win0_1.index t (1 : Fin 4) * 1 + 1 * 0 = win0_4.index t (1 : Fin 4); omega
    | ⟨2, _⟩ => show win0_1.index t (2 : Fin 4) * 1024 + 1 * s.val = s.val; omega
    | ⟨3, _⟩ => show win0_1.index t (3 : Fin 4) * 64 + 1 * d.val = d.val; omega
  · intro s d
    show V m c main_arg2 (((cfg0.win 2).blk t).view.emb (ix4 (0 : Fin 1) (0 : Fin 1) s d)) = V m c main_arg2 (ix4 _ _ s d)
    refine congrArg _ (funext fun a => Fin.ext ?_)
    match a with
    | ⟨0, _⟩ => show win0_2.index t (0 : Fin 4) * 1 + 1 * 0 = win0_4.index t (0 : Fin 4); omega
    | ⟨1, _⟩ => show win0_2.index t (1 : Fin 4) * 1 + 1 * 0 = win0_4.index t (1 : Fin 4); omega
    | ⟨2, _⟩ => show win0_2.index t (2 : Fin 4) * 1024 + 1 * s.val = s.val; omega
    | ⟨3, _⟩ => show win0_2.index t (3 : Fin 4) * 64 + 1 * d.val = d.val; omega
  · intro a b'
    show V m c main_arg3 (((cfg0.win 3).blk t).view.emb (ix2 a b')) = V m c main_arg3 (ix2 a b')
    refine congrArg _ (funext fun x => Fin.ext ?_)
    match x with
    | ⟨0, _⟩ => show win0_3.index t (0 : Fin 2) * 64 + 1 * a.val = a.val; omega
    | ⟨1, _⟩ => show win0_3.index t (1 : Fin 2) * 64 + 1 * b'.val = b'.val; omega
  · show win0_4.index t (0 : Fin 4) * 1 + 1 * (j 0).val = win0_4.index t (0 : Fin 4); omega
  · show win0_4.index t (1 : Fin 4) * 1 + 1 * (j 1).val = win0_4.index t (1 : Fin 4); omega
  · show win0_4.index t (2 : Fin 4) * 1024 + 1 * (j 2).val = (j 2).val; omega
  · show win0_4.index t (3 : Fin 4) * 64 + 1 * (j 3).val = (j 3).val; omega

/-- An index of the result array is in point t's block iff each coordinate is in the block's range. -/
theorem mem_blk (t : Fin cfg0.N) (i : S4x16x1024x64.Idx) :
    i ∈ ((cfg0.win 4).blk t).view.set
      ↔ ∀ a : Fin 4, win0_4.index t a * S1x1x1024x64.size a ≤ (i a).val ∧ (i a).val < win0_4.index t a * S1x1x1024x64.size a + S1x1x1024x64.size a := by
  show i ∈ ((View.whole main_v0).slice (win0_4.rect t)).set ↔ _
  rw [View.set_slice_whole, Rect.mem_set_unit]
  exact Iff.rfl

/-- The 64 blocks tile the result array. -/
theorem cover (i : S4x16x1024x64.Idx) : ∃ t : Fin cfg0.N, (cfg0.win 4).flush t = true ∧ i ∈ ((cfg0.win 4).blk t).view.set := by
  obtain ⟨t, ht⟩ := idx_onto (cB i) (cH i)
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  have l2 : (i 2).val < 1024 := (i 2).isLt
  have l3 : (i 3).val < 64 := (i 3).isLt
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- The result array after the run. -/
theorem final (c : Dev nD) :
    (dats m 0 c).arrAt 4 cfg0.N
      = attn (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => flushed_eq m c t) cover

/-- The kernel's run: the result array is `attn` of the arguments, which are unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KFinal

end
-- ==== Proof.RefSide.lean ====
/- The reference program is the dense form of the specification.

   Read one output element `(b, h, s, d)` of the reference back through its operations, outermost first: the last contraction sums,
   over the key rows `t`, the normalised masked score times the value; the normalised masked score is the masked score divided
   by the row's sum of masked scores; the mask keeps `t ≤ s` (a signed comparison of two coordinates below 1024, which therefore
   do not wrap) and puts the zero literal elsewhere; a score is the contraction of a query feature row with a key feature row;
   a feature is `exp(x̂ P − ‖x‖² · 1/2 · 1/8 − stab) + ε`, where `x̂ P` is a contraction with the scaled input, `‖x‖²` a sum of
   squares from the zero literal, and `stab` a maximum: over the feature axis for the queries, over the last two axes jointly for
   the keys. A maximum from −∞ over one axis is the fold of `max` along that axis; over two axes jointly it is the fold of `max`
   over all pairs of coordinates, which equals the maximum of the row maxima because both are the least upper bound of −∞
   and the same entries. Everything here is reading: it holds for all extended reals, with no finiteness assumption.

   The per-operation equations `val_main_vN_apply` come from the generated module that reads the reference one operation at a
   time; each lemma below states one group of them at explicit coordinates `(b, h, s, m)`. -/
import proofs.«170563_j12987981103117_2_alg».proof.Proof.Gen.ReferenceIdeal.Read
import proofs.«170563_j12987981103117_2_alg».proof.Proof.Spec
import Idealize.ShloMosaic.PureOps.Reduce
import Idealize.ShloMosaic.PureOps.Ideal.Laws
import Idealize.ShloMosaic.Lib.ValueIdx
import Idealize.ShloMosaic.Lib.Affine

noncomputable section

namespace Cert.RefSide

open Cert.ReferenceIdeal Cert.ReferenceIdeal.Gen Cert.ReferenceIdeal.Read Idealize.ShloMosaic Idealize.ShloMosaic.ValueIdx
open Cert.Spec

abbrev A4 := (⟨S4x16x1024x64, .f32⟩ : BufTy).Contents (Elt Ideal)
abbrev A2 := (⟨S64x64, .f32⟩ : BufTy).Contents (Elt Ideal)

/-! ## Index bookkeeping

Every stage of the reference reads its operands at an index computed from the literal shapes; at an index given by its
coordinates these are again indices given by coordinates. -/

/-- The projected, scaled rows of the queries: `x̂ P`. -/
theorem dash_q (x0 : A4) (x3 : A2) (b : Fin 4) (h : Fin 16) (s : Fin 1024) (m : Fin 64) :
    val_main_v2 (F := Ideal) x0 x3 (ix4 b h s m) = dash (head x0 b h) (mat x3) s m := by
  rw [val_main_v2_apply]
  unfold dash
  refine Finset.sum_congr rfl fun k _ => ?_
  have el : lidx_main_v2 (ix4 b h s m) k = ix4 b h s k :=
    funext fun a => Fin.ext (by match a with | ⟨0, _⟩ => rfl | ⟨1, _⟩ => rfl | ⟨2, _⟩ => rfl | ⟨3, _⟩ => rfl)
  have er : ridx_main_v2 (ix4 b h s m) k = ix2 k m :=
    funext fun a => Fin.ext (by match a with | ⟨0, _⟩ => rfl | ⟨1, _⟩ => rfl)
  rw [el, er, val_main_v1_apply, val_main_v0_apply, val_main_cst_apply]
  rfl

/-- The projected, scaled rows of the keys. -/
theorem dash_k (x1 : A4) (x3 : A2) (b : Fin 4) (h : Fin 16) (s : Fin 1024) (m : Fin 64) :
    val_main_v21 (F := Ideal) x1 x3 (ix4 b h s m) = dash (head x1 b h) (mat x3) s m := by
  rw [val_main_v21_apply]
  unfold dash
  refine Finset.sum_congr rfl fun k _ => ?_
  have el : lidx_main_v21 (ix4 b h s m) k = ix4 b h s k :=
    funext fun a => Fin.ext (by match a with | ⟨0, _⟩ => rfl | ⟨1, _⟩ => rfl | ⟨2, _⟩ => rfl | ⟨3, _⟩ => rfl)
  have er : ridx_main_v21 (ix4 b h s m) k = ix2 k m :=
    funext fun a => Fin.ext (by match a with | ⟨0, _⟩ => rfl | ⟨1, _⟩ => rfl)
  rw [el, er, val_main_v20_apply, val_main_v19_apply, val_main_cst_5_apply]
  rfl

/-- The squared norm of a query row: the host's sum starts from the zero literal. -/
theorem sq_q (x0 : A4) (b : Fin 4) (h : Fin 16) (s : Fin 1024) :
    val_main_v4 (F := Ideal) x0 (ix3 b h s) = Spec.sq (head x0 b h) s := by
  rw [val_main_v4_apply, val_main_cst_0_apply, Ideal.ofBits_def, Ideal.ofBits_zero_f32, zero_add]
  unfold Spec.sq
  refine Finset.sum_congr rfl fun k _ => ?_
  have e : idx_main_v4 (ix3 b h s) k = ix4 b h s k :=
    funext fun a => Fin.ext (by match a with | ⟨0, _⟩ => rfl | ⟨1, _⟩ => rfl | ⟨2, _⟩ => rfl | ⟨3, _⟩ => rfl)
  rw [e, val_main_v3_apply]
  rfl

/-- The squared norm of a key row. -/
theorem sq_k (x1 : A4) (b : Fin 4) (h : Fin 16) (s : Fin 1024) :
    val_main_v23 (F := Ideal) x1 (ix3 b h s) = Spec.sq (head x1 b h) s := by
  rw [val_main_v23_apply, val_main_cst_6_apply, Ideal.ofBits_def, Ideal.ofBits_zero_f32, zero_add]
  unfold Spec.sq
  refine Finset.sum_congr rfl fun k _ => ?_
  have e : idx_main_v23 (ix3 b h s) k = ix4 b h s k :=
    funext fun a => Fin.ext (by match a with | ⟨0, _⟩ => rfl | ⟨1, _⟩ => rfl | ⟨2, _⟩ => rfl | ⟨3, _⟩ => rfl)
  rw [e, val_main_v22_apply]
  rfl

/-- `‖x_s‖² · 1/2 · 1/8` for the queries, broadcast along the features. -/
theorem diag_q (x0 : A4) (b : Fin 4) (h : Fin 16) (s : Fin 1024) (m : Fin 64) :
    val_main_v12 (F := Ideal) x0 (ix4 b h s m) = diag' (head x0 b h) s := by
  rw [val_main_v12_apply, val_main_v9_apply, val_main_v7_apply, val_main_v5_apply, val_main_v6_apply,
    val_main_cst_1_apply, val_main_v8_apply, val_main_cst_2_apply]
  have e : idx_main_v5 (idx_main_v12 (ix4 b h s m)) = ix3 b h s :=
    funext fun a => Fin.ext (by match a with | ⟨0, _⟩ => rfl | ⟨1, _⟩ => rfl | ⟨2, _⟩ => rfl)
  rw [e, sq_q]
  rfl

/-- The same for the keys. -/
theorem diag_k (x1 : A4) (b : Fin 4) (h : Fin 16) (s : Fin 1024) (m : Fin 64) :
    val_main_v31 (F := Ideal) x1 (ix4 b h s m) = diag' (head x1 b h) s := by
  rw [val_main_v31_apply, val_main_v28_apply, val_main_v26_apply, val_main_v24_apply, val_main_v25_apply,
    val_main_cst_7_apply, val_main_v27_apply, val_main_cst_8_apply]
  have e : idx_main_v24 (idx_main_v31 (ix4 b h s m)) = ix3 b h s :=
    funext fun a => Fin.ext (by match a with | ⟨0, _⟩ => rfl | ⟨1, _⟩ => rfl | ⟨2, _⟩ => rfl)
  rw [e, sq_k]
  rfl

/-! ## The two maxima

The reference's `reduce` with a maximum body is, at the exact instance, a fold of `max` from −∞ over the indices that drop
to the result's index: over one axis this is the fold along the row; over the last two axes jointly it is the least
upper bound of −∞ and all entries of the head, which is also what the maximum of the row maxima is. -/

theorem reduces_d3 : S4x16x1024x64.Reduces [3] S4x16x1024 := by decide

/-- The row index `(b, h, s)` with the feature coordinate `k` put back is `(b, h, s, k)`. -/
theorem lift_d3 (b : Fin 4) (h : Fin 16) (s : Fin 1024) (k : Fin (S4x16x1024x64.size 3)) :
    reduces_d3.lift (ix3 b h s) k = ix4 b h s (⟨k.val, k.isLt⟩ : Fin 64) := by
  funext c; apply Fin.ext
  match c with | ⟨0, _⟩ => rfl | ⟨1, _⟩ => rfl | ⟨2, _⟩ => rfl | ⟨3, _⟩ => rfl

/-- The maximum over the feature axis, from −∞, is the fold of `max` along the row. -/
theorem reduce_max_row (y : FVec Ideal S4x16x1024x64 .f32) (b : Fin 4) (h : Fin 16) (s : Fin 1024) :
    Host.reduce (FloatOps.maximumf (F := Ideal) (φ := .f32)) y (val_main_cst_3 (F := Ideal))
        reducesTo_S4x16x1024x64_S4x16x1024_d3 h_S_ (ix3 b h s)
      = (Finset.univ : Finset (Fin 64)).fold max cNegInf (fun m => y (ix4 b h s m)) := by
  rw [Host.reduce_eq_fold_single (s := S4x16x1024x64) (α := Ideal .f32) FloatOps.maximumf y _ reducesTo_S4x16x1024x64_S4x16x1024_d3 reduces_d3 h_S_]
  have hf : (y ∘ reduces_d3.lift (ix3 b h s)) = fun k : Fin 64 => y (ix4 b h s k) :=
    funext fun k => congrArg y (lift_d3 b h s k)
  exact congrArg (fun f => Finset.fold max cNegInf f (Finset.univ : Finset (Fin 64))) hf

/-- The row maximum of the projected queries. -/
theorem rowMax_q (x0 : A4) (x3 : A2) (b : Fin 4) (h : Fin 16) (s : Fin 1024) :
    val_main_v10 (F := Ideal) x0 x3 (ix3 b h s) = rowMax (dash (head x0 b h) (mat x3)) s := by
  refine (reduce_max_row (val_main_v2 (F := Ideal) x0 x3) b h s).trans ?_
  unfold rowMax
  exact congrArg (fun f => Finset.fold max cNegInf f (Finset.univ : Finset (Fin 64))) (funext fun m => dash_q x0 x3 b h s m)

/-- Dropping the last two coordinates of `(b, h, s, m)` leaves `(b, h)`. -/
theorem drop_d23 (b : Fin 4) (h : Fin 16) (s : Fin 1024) (m : Fin 64) :
    reducesTo_S4x16x1024x64_S4x16_d2_3.drop (ix4 b h s m) = ix2 b h := by
  funext c; apply Fin.ext
  match c with
  | ⟨0, _⟩ => exact Shape.ReducesTo.drop_apply_val_of_eq reducesTo_S4x16x1024x64_S4x16_d2_3 (ix4 b h s m) 0 0
  | ⟨1, _⟩ => exact Shape.ReducesTo.drop_apply_val_of_eq reducesTo_S4x16x1024x64_S4x16_d2_3 (ix4 b h s m) 1 1

/-- An index whose first two coordinates are `(b, h)` is `(b, h, s, m)` for its last two coordinates. -/
theorem eq_of_drop_d23 (i : S4x16x1024x64.Idx) (b : Fin 4) (h : Fin 16)
    (e : reducesTo_S4x16x1024x64_S4x16_d2_3.drop i = ix2 b h) :
    i = ix4 b h (⟨(i 2).val, (i 2).isLt⟩ : Fin 1024) (⟨(i 3).val, (i 3).isLt⟩ : Fin 64) := by
  have h0 : (i 0).val = b.val :=
    (Shape.ReducesTo.drop_apply_val_of_eq reducesTo_S4x16x1024x64_S4x16_d2_3 i 0 0).symm.trans
      (congrArg (fun j : S4x16.Idx => (j 0).val) e)
  have h1 : (i 1).val = h.val :=
    (Shape.ReducesTo.drop_apply_val_of_eq reducesTo_S4x16x1024x64_S4x16_d2_3 i 1 1).symm.trans
      (congrArg (fun j : S4x16.Idx => (j 1).val) e)
  funext c; apply Fin.ext
  match c with | ⟨0, _⟩ => exact h0 | ⟨1, _⟩ => exact h1 | ⟨2, _⟩ => rfl | ⟨3, _⟩ => rfl

/-- The maximum over the last two axes jointly, from −∞, is the maximum of the row maxima. -/
theorem reduce_max_head (y : FVec Ideal S4x16x1024x64 .f32) (b : Fin 4) (h : Fin 16) :
    Host.reduce (FloatOps.maximumf (F := Ideal) (φ := .f32)) y (val_main_cst_9 (F := Ideal))
        reducesTo_S4x16x1024x64_S4x16_d2_3 h_S_ (ix2 b h)
      = (Finset.univ : Finset (Fin 1024)).fold max cNegInf
          (fun s => (Finset.univ : Finset (Fin 64)).fold max cNegInf (fun m => y (ix4 b h s m))) := by
  rw [Host.reduce_eq_fold (s := S4x16x1024x64) (α := Ideal .f32) FloatOps.maximumf y _ reducesTo_S4x16x1024x64_S4x16_d2_3 h_S_]
  show Finset.fold max cNegInf y (Finset.univ.filter fun i => reducesTo_S4x16x1024x64_S4x16_d2_3.drop i = ix2 b h) = _
  apply le_antisymm
  · rw [Finset.fold_max_le]
    refine ⟨(Finset.le_fold_max _).2 (Or.inl le_rfl), fun i hi => ?_⟩
    obtain ⟨s, m, rfl⟩ : ∃ (s : Fin 1024) (m : Fin 64), i = ix4 b h s m :=
      ⟨_, _, eq_of_drop_d23 i b h (Finset.mem_filter.1 hi).2⟩
    refine (Finset.le_fold_max _).2 (Or.inr ⟨s, Finset.mem_univ _, ?_⟩)
    exact (Finset.le_fold_max _).2 (Or.inr ⟨m, Finset.mem_univ _, le_rfl⟩)
  · rw [Finset.fold_max_le]
    refine ⟨(Finset.le_fold_max _).2 (Or.inl le_rfl), fun s _ => ?_⟩
    rw [Finset.fold_max_le]
    refine ⟨(Finset.le_fold_max _).2 (Or.inl le_rfl), fun m _ => ?_⟩
    exact (Finset.le_fold_max _).2 (Or.inr ⟨ix4 b h s m, Finset.mem_filter.2 ⟨Finset.mem_univ _, drop_d23 b h s m⟩, le_rfl⟩)

/-- The maximum of the projected keys over the whole head. -/
theorem allMax_k (x1 : A4) (x3 : A2) (b : Fin 4) (h : Fin 16) :
    val_main_v29 (F := Ideal) x1 x3 (ix2 b h) = allMax (dash (head x1 b h) (mat x3)) := by
  refine (reduce_max_head (val_main_v21 (F := Ideal) x1 x3) b h).trans ?_
  unfold allMax rowMax
  refine congrArg (fun f => Finset.fold max cNegInf f (Finset.univ : Finset (Fin 1024))) (funext fun s => ?_)
  exact congrArg (fun f => Finset.fold max cNegInf f (Finset.univ : Finset (Fin 64))) (funext fun m => dash_k x1 x3 b h s m)

/-! ## The features

`exp(x̂ P − ‖x‖²/16 − stab) + ε`, with the row maximum for the queries and the head's maximum for the keys. -/

theorem featQ_eq (x0 : A4) (x3 : A2) (b : Fin 4) (h : Fin 16) (s : Fin 1024) (m : Fin 64) :
    val_main_v18 (F := Ideal) x0 x3 (ix4 b h s m) = featQ' (head x0 b h) (mat x3) s m := by
  rw [val_main_v18_apply, val_main_v16_apply, val_main_v15_apply, val_main_v13_apply, val_main_v14_apply,
    val_main_v11_apply, val_main_v17_apply, val_main_cst_4_apply]
  have e : idx_main_v11 (idx_main_v14 (ix4 b h s m)) = ix3 b h s :=
    funext fun a => Fin.ext (by match a with | ⟨0, _⟩ => rfl | ⟨1, _⟩ => rfl | ⟨2, _⟩ => rfl)
  rw [e, dash_q, diag_q, rowMax_q]
  rfl

theorem featK_eq (x1 : A4) (x3 : A2) (b : Fin 4) (h : Fin 16) (s : Fin 1024) (m : Fin 64) :
    val_main_v37 (F := Ideal) x1 x3 (ix4 b h s m) = featK' (head x1 b h) (mat x3) s m := by
  rw [val_main_v37_apply, val_main_v35_apply, val_main_v34_apply, val_main_v32_apply, val_main_v33_apply,
    val_main_v30_apply, val_main_v36_apply, val_main_cst_10_apply]
  have e : idx_main_v30 (idx_main_v33 (ix4 b h s m)) = ix2 b h :=
    funext fun a => Fin.ext (by match a with | ⟨0, _⟩ => rfl | ⟨1, _⟩ => rfl)
  rw [e, dash_k, diag_k, allMax_k]
  rfl

/-! ## Scores, the causal mask, the normaliser -/

theorem score_eq (x0 x1 : A4) (x3 : A2) (b : Fin 4) (h : Fin 16) (s t : Fin 1024) :
    val_main_v38 (F := Ideal) x0 x1 x3 (ix4 b h s t)
      = score (featQ' (head x0 b h) (mat x3)) (featK' (head x1 b h) (mat x3)) s t := by
  rw [val_main_v38_apply]
  unfold score
  refine Finset.sum_congr rfl fun k _ => ?_
  have el : lidx_main_v38 (ix4 b h s t) k = ix4 b h s k :=
    funext fun a => Fin.ext (by match a with | ⟨0, _⟩ => rfl | ⟨1, _⟩ => rfl | ⟨2, _⟩ => rfl | ⟨3, _⟩ => rfl)
  have er : ridx_main_v38 (ix4 b h s t) k = ix4 b h t k :=
    funext fun a => Fin.ext (by match a with | ⟨0, _⟩ => rfl | ⟨1, _⟩ => rfl | ⟨2, _⟩ => rfl | ⟨3, _⟩ => rfl)
  rw [el, er, featQ_eq, featK_eq]

/-- A coordinate below 1024, as a 32-bit word read signed, is itself. -/
theorem toInt_ofNat_lt (n : Nat) (hn : n < 1024) : (BitVec.ofNat 32 n).toInt = (n : Int) := by
  rw [BitVec.toInt_eq_toNat_cond, BitVec.toNat_ofNat, Nat.mod_eq_of_lt (by omega)]
  rw [if_pos (by omega)]

/-- The mask's word: the row coordinate (plus the zero offset) is at least the column coordinate, signed. -/
theorem mask_iff (s t : Fin 1024) :
    IntOp.cmpi .sge (IntOp.addi (BitVec.ofNat 32 s.val) 0#32) (BitVec.ofNat 32 t.val) = 1#1 ↔ t ≤ s := by
  rw [IntOp.cmpi_sge]
  have e : IntOp.addi (BitVec.ofNat 32 s.val) 0#32 = BitVec.ofNat 32 s.val := BitVec.add_zero _
  rw [e, toInt_ofNat_lt _ s.isLt, toInt_ofNat_lt _ t.isLt, Fin.le_def]
  exact Int.ofNat_le

theorem mask_select {α : Type} (s t : Fin 1024) (a b : α) :
    Scalar.select (IntOp.cmpi .sge (IntOp.addi (BitVec.ofNat 32 s.val) 0#32) (BitVec.ofNat 32 t.val)) a b
      = if t ≤ s then a else b := by
  unfold Scalar.select
  exact if_congr (mask_iff s t) rfl rfl

theorem tril_eq (x0 x1 : A4) (x3 : A2) (b : Fin 4) (h : Fin 16) (s t : Fin 1024) :
    val_main_v39 (F := Ideal) x0 x1 x3 (ix4 b h s t)
      = tril (featQ' (head x0 b h) (mat x3)) (featK' (head x1 b h) (mat x3)) s t := by
  rw [val_main_v39_apply, val_main_call0_v5_apply, val_main_call0_v4_apply, val_main_call0_v2_apply,
    val_main_call0_v0_apply, val_main_call0_v1_apply, val_main_call0_c_apply, val_main_call0_v3_apply,
    val_main_call0_v6_apply, val_main_call0_cst_apply, score_eq, Ideal.ofBits_def, Ideal.ofBits_zero_f32]
  unfold tril
  exact mask_select s t _ _

theorem rowSum_eq (x0 x1 : A4) (x3 : A2) (b : Fin 4) (h : Fin 16) (s : Fin 1024) :
    val_main_v40 (F := Ideal) x0 x1 x3 (ix3 b h s)
      = rowSum (featQ' (head x0 b h) (mat x3)) (featK' (head x1 b h) (mat x3)) s := by
  rw [val_main_v40_apply, val_main_cst_11_apply, Ideal.ofBits_def, Ideal.ofBits_zero_f32, zero_add]
  unfold rowSum
  refine Finset.sum_congr rfl fun k _ => ?_
  have e : idx_main_v40 (ix3 b h s) k = ix4 b h s k :=
    funext fun a => Fin.ext (by match a with | ⟨0, _⟩ => rfl | ⟨1, _⟩ => rfl | ⟨2, _⟩ => rfl | ⟨3, _⟩ => rfl)
  rw [e, tril_eq]

/-! ## The reference is the dense form -/

theorem ref_eq
    (x0 x1 x2 : (⟨Cert.ReferenceIdeal.S4x16x1024x64, .f32⟩ : BufTy).Contents (Elt Ideal))
    (x3 : (⟨Cert.ReferenceIdeal.S64x64, .f32⟩ : BufTy).Contents (Elt Ideal))
    (b : Fin 4) (h : Fin 16) (s : Fin 1024) (d : Fin 64) :
    Cert.ReferenceIdeal.Read.val_main_v44 (F := Ideal) x0 x1 x2 x3 (ValueIdx.ix4 b h s d)
      = Cert.Spec.dense (Cert.Spec.featQ' (Cert.Spec.head x0 b h) (Cert.Spec.mat x3))
                        (Cert.Spec.featK' (Cert.Spec.head x1 b h) (Cert.Spec.mat x3))
                        (Cert.Spec.head x2 b h) s d := by
  rw [val_main_v44_apply]
  unfold dense
  refine Finset.sum_congr rfl fun k _ => ?_
  have el : lidx_main_v44 (ix4 b h s d) k = ix4 b h s k :=
    funext fun a => Fin.ext (by match a with | ⟨0, _⟩ => rfl | ⟨1, _⟩ => rfl | ⟨2, _⟩ => rfl | ⟨3, _⟩ => rfl)
  have er : ridx_main_v44 (ix4 b h s d) k = ix4 b h k d :=
    funext fun a => Fin.ext (by match a with | ⟨0, _⟩ => rfl | ⟨1, _⟩ => rfl | ⟨2, _⟩ => rfl | ⟨3, _⟩ => rfl)
  have e2 : idx_main_v41 (idx_main_v42 (ix4 b h s k)) = ix3 b h s :=
    funext fun a => Fin.ext (by match a with | ⟨0, _⟩ => rfl | ⟨1, _⟩ => rfl | ⟨2, _⟩ => rfl)
  rw [el, er, val_main_v43_apply, val_main_v42_apply, val_main_v41_apply, e2, tril_eq, rowSum_eq]
  rfl

end Cert.RefSide

end
-- ==== Proof.Algebra.lean ====
/- The algebra of the certificate: the chunked form of causal random-feature attention (a running state over four chunks of
   256 rows, the normaliser carried by a column of ones) equals the dense form (normalise the masked scores row by row, then
   weigh the values), whenever the inputs are finite.

   Steps: (1) the literal `1/16` equals the product of the literals `1/2` and `1/8`, so the two feature maps agree for all
   extended reals; (2) for finite inputs every feature is a positive real; (3) at real arguments every definition of the
   specification is the coercion of the same expression over the reals, the divisions included because the normaliser is a
   sum of non-negative scores containing the positive diagonal score; (4) over the reals, splitting the sum over the 1024 key
   rows into chunks turns the dense sum into the state contribution (chunks before the row's own), the masked block (its own
   chunk) and nothing (later chunks). -/
import proofs.«170563_j12987981103117_2_alg».proof.Proof.Spec

open Idealize.ShloMosaic

noncomputable section

namespace Cert.Alg

open Cert.Spec

/-! ## The literals -/

theorem cHalf_eq : cHalf = ((1 / 2 : ℝ) : EReal) := by
  simp [cHalf, Ideal.ofBits, Ideal.ieee]
  rw [← EReal.coe_mul]; norm_num

theorem cEighth_eq : cEighth = ((1 / 8 : ℝ) : EReal) := by
  simp [cEighth, Ideal.ofBits, Ideal.ieee]
  rw [← EReal.coe_mul]; norm_num

theorem cSixteenth_eq : cSixteenth = ((1 / 16 : ℝ) : EReal) := by
  simp [cSixteenth, Ideal.ofBits, Ideal.ieee]
  rw [← EReal.coe_mul]; norm_num

theorem cNegInf_eq : cNegInf = ⊥ := by
  simp [cNegInf, Ideal.ofBits, Ideal.ieee]

/-- `1/2 · 1/8 = 1/16`, so the two ways of writing `‖x_s‖² / 16` agree, for every extended real. -/
theorem diag'_eq (x : Mat 1024 64) (s : Fin 1024) : diag' x s = diag x s := by
  have h : ((1 / 2 : ℝ) : EReal) * ((1 / 8 : ℝ) : EReal) = ((1 / 16 : ℝ) : EReal) := by
    rw [← EReal.coe_mul]; norm_num
  unfold diag' diag
  rw [mul_assoc, cHalf_eq, cEighth_eq, cSixteenth_eq, h]

theorem featQ'_eq (x : Mat 1024 64) (P : Mat 64 64) : featQ' x P = featQ x P := by
  funext s m
  simp only [featQ', featQ, diag'_eq]

theorem featK'_eq (x : Mat 1024 64) (P : Mat 64 64) : featK' x P = featK x P := by
  funext s m
  simp only [featK', featK, diag'_eq]

/-! ## Finite inputs give positive real features -/

/-- An extended real that is a real number. -/
def IsR (y : EReal) : Prop := ∃ x : ℝ, y = (x : EReal)

theorem IsR.add {a b : EReal} (ha : IsR a) (hb : IsR b) : IsR (a + b) := by
  obtain ⟨x, rfl⟩ := ha; obtain ⟨y, rfl⟩ := hb; exact ⟨x + y, (EReal.coe_add x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.zero : IsR 0 := ⟨0, EReal.coe_zero.symm⟩

theorem IsR.sum {ι : Type*} (s : Finset ι) (f : ι → EReal) (h : ∀ i ∈ s, IsR (f i)) :
    IsR (∑ i ∈ s, f i) :=
  Finset.sum_induction f IsR (fun _ _ => IsR.add) IsR.zero h

/-- A maximum, folded from `−∞`, of finitely many and at least one real numbers is a real number: it is below `+∞` because
    every member is, and above `−∞` because some member is. -/
theorem IsR.foldMax {ι : Type*} (s : Finset ι) (hs : s.Nonempty) (f : ι → EReal)
    (h : ∀ i ∈ s, IsR (f i)) : IsR (s.fold max ⊥ f) := by
  have h1 : s.fold max ⊥ f < ⊤ := by
    rw [Finset.fold_max_lt]
    refine ⟨bot_lt_top, fun i hi => ?_⟩
    obtain ⟨x, hx⟩ := h i hi
    rw [hx]; exact EReal.coe_lt_top x
  have h2 : ⊥ < s.fold max ⊥ f := by
    rw [Finset.lt_fold_max]
    obtain ⟨i, hi⟩ := hs
    obtain ⟨x, hx⟩ := h i hi
    exact Or.inr ⟨i, hi, by rw [hx]; exact EReal.bot_lt_coe x⟩
  exact ⟨_, (EReal.coe_toReal h1.ne h2.ne').symm⟩

theorem cScale_isR : IsR cScale := by
  simp [cScale, Ideal.ofBits, Ideal.ieee]
  exact IsR.mul ⟨_, rfl⟩ ⟨_, rfl⟩

theorem cEps_pos : ∃ e : ℝ, 0 < e ∧ cEps = (e : EReal) := by
  simp [cEps, Ideal.ofBits, Ideal.ieee]
  refine ⟨_, ?_, (EReal.coe_mul _ _).symm⟩
  norm_num

section Features

variable (x : Mat 1024 64) (P : Mat 64 64) (hx : ∀ s d, IsR (x s d)) (hP : ∀ a b, IsR (P a b))
include hx

theorem sq_isR (s : Fin 1024) : IsR (sq x s) :=
  IsR.sum _ _ fun d _ => IsR.mul (hx s d) (hx s d)

theorem diag_isR (s : Fin 1024) : IsR (diag x s) :=
  IsR.mul (sq_isR x hx s) ⟨_, cSixteenth_eq⟩

include hP

theorem dash_isR (s : Fin 1024) (m : Fin 64) : IsR (dash x P s m) :=
  IsR.sum _ _ fun d _ => IsR.mul (IsR.mul cScale_isR (hx s d)) (hP d m)

end Features

theorem rowMax_isR (y : Mat 1024 64) (hy : ∀ s m, IsR (y s m)) (s : Fin 1024) : IsR (rowMax y s) := by
  unfold rowMax; rw [cNegInf_eq]
  exact IsR.foldMax _ Finset.univ_nonempty _ fun m _ => hy s m

theorem allMax_isR (y : Mat 1024 64) (hy : ∀ s m, IsR (y s m)) : IsR (allMax y) := by
  unfold allMax; rw [cNegInf_eq]
  exact IsR.foldMax _ Finset.univ_nonempty _ fun s _ => rowMax_isR y hy s

/-- `exp` of a real difference, plus the positive literal `ε`, is a positive real. -/
theorem feat_pos {a b c : EReal} (ha : IsR a) (hb : IsR b) (hc : IsR c) :
    ∃ x : ℝ, 0 < x ∧ Ideal.exp (a - b - c) + cEps = (x : EReal) := by
  obtain ⟨a, rfl⟩ := ha; obtain ⟨b, rfl⟩ := hb; obtain ⟨c, rfl⟩ := hc
  obtain ⟨e, he, hE⟩ := cEps_pos
  refine ⟨Real.exp (a - b - c) + e, by positivity, ?_⟩
  rw [hE, ← EReal.coe_sub, ← EReal.coe_sub]
  exact (EReal.coe_add _ _).symm

/-- Real matrices, and their coercion to matrices of extended reals. -/
abbrev RMat (a b : Nat) := Fin a → Fin b → ℝ

def lift {a b : Nat} (f : RMat a b) : Mat a b := fun i j => (f i j : EReal)

theorem featQ_real (q : Mat 1024 64) (P : Mat 64 64) (hq : ∀ s d, IsR (q s d)) (hP : ∀ a b, IsR (P a b)) :
    ∃ fq : RMat 1024 64, (∀ s m, 0 < fq s m) ∧ featQ q P = lift fq := by
  have h : ∀ s m, ∃ x : ℝ, 0 < x ∧ featQ q P s m = (x : EReal) := fun s m =>
    feat_pos (dash_isR q P hq hP s m) (diag_isR q hq s) (rowMax_isR _ (dash_isR q P hq hP) s)
  choose fq hpos heq using h
  exact ⟨fq, hpos, funext fun s => funext fun m => heq s m⟩

theorem featK_real (k : Mat 1024 64) (P : Mat 64 64) (hk : ∀ s d, IsR (k s d)) (hP : ∀ a b, IsR (P a b)) :
    ∃ fk : RMat 1024 64, (∀ s m, 0 < fk s m) ∧ featK k P = lift fk := by
  have h : ∀ s m, ∃ x : ℝ, 0 < x ∧ featK k P s m = (x : EReal) := fun s m =>
    feat_pos (dash_isR k P hk hP s m) (diag_isR k hk s) (allMax_isR _ (dash_isR k P hk hP))
  choose fk hpos heq using h
  exact ⟨fk, hpos, funext fun s => funext fun m => heq s m⟩

/-! ## The identity over the reals -/

section Reals

/-- Rows `4 × 256` and rows `1024` correspond through `row`. -/
def rowEquiv : Fin 4 × Fin 256 ≃ Fin 1024 where
  toFun p := row p.1 p.2
  invFun t := (⟨t.val / 256, by have := t.isLt; omega⟩, ⟨t.val % 256, Nat.mod_lt _ (by norm_num)⟩)
  left_inv := by
    rintro ⟨c, r⟩
    have := r.isLt
    refine Prod.ext (Fin.ext ?_) (Fin.ext ?_)
    · show (256 * c.val + r.val) / 256 = c.val; omega
    · show (256 * c.val + r.val) % 256 = r.val; omega
  right_inv := by
    intro t
    refine Fin.ext ?_
    show 256 * (t.val / 256) + t.val % 256 = t.val; omega

/-- A sum over the 1024 rows, chunk by chunk. -/
theorem sum_row (f : Fin 1024 → ℝ) : ∑ t, f t = ∑ c : Fin 4, ∑ r : Fin 256, f (row c r) := by
  rw [← Fintype.sum_prod_type' (f := fun c r => f (row c r))]
  exact (Equiv.sum_comp rowEquiv f).symm

theorem row_le_of_lt {c' c : Fin 4} (h : c' < c) (r' r : Fin 256) : row c' r' ≤ row c r := by
  have h1 := r'.isLt; have h2 := r.isLt; have h3 := Fin.lt_def.1 h
  rw [Fin.le_def]; show 256 * c'.val + r'.val ≤ 256 * c.val + r.val; omega

theorem not_row_le_of_lt {c' c : Fin 4} (h : c < c') (r' r : Fin 256) : ¬ row c' r' ≤ row c r := by
  have h1 := r'.isLt; have h2 := r.isLt; have h3 := Fin.lt_def.1 h
  rw [Fin.le_def]; show ¬ 256 * c'.val + r'.val ≤ 256 * c.val + r.val; omega

theorem row_le_row_iff (c : Fin 4) (r' r : Fin 256) : row c r' ≤ row c r ↔ r' ≤ r := by
  rw [Fin.le_def, Fin.le_def]; show 256 * c.val + r'.val ≤ 256 * c.val + r.val ↔ _; omega

variable (fq fk v : RMat 1024 64)

def scoreR (s t : Fin 1024) : ℝ := ∑ m : Fin 64, fq s m * fk t m
def trilR (s t : Fin 1024) : ℝ := if t ≤ s then scoreR fq fk s t else 0
def rowSumR (s : Fin 1024) : ℝ := ∑ t : Fin 1024, trilR fq fk s t
def denseR (s : Fin 1024) (d : Fin 64) : ℝ := ∑ t : Fin 1024, trilR fq fk s t / rowSumR fq fk s * v t d
def vaugR (t : Fin 1024) (j : Fin 65) : ℝ := if h : j.val < 64 then v t ⟨j.val, h⟩ else 1
def updR (c : Fin 4) (m : Fin 64) (j : Fin 65) : ℝ := ∑ r' : Fin 256, fk (row c r') m * vaugR v (row c r') j
/-- The state before chunk `c`: the updates of the chunks before it. -/
def stateR (c : Fin 4) (m : Fin 64) (j : Fin 65) : ℝ := ∑ c' : Fin 4, if c' < c then updR fk v c' m j else 0
def combR (c : Fin 4) (r : Fin 256) (j : Fin 65) : ℝ :=
  (∑ m : Fin 64, fq (row c r) m * stateR fk v c m j)
    + ∑ r' : Fin 256, (if r' ≤ r then scoreR fq fk (row c r) (row c r') else 0) * vaugR v (row c r') j

theorem vaugR_last (t : Fin 1024) : vaugR v t (Fin.last 64) = 1 := by
  unfold vaugR; rw [dif_neg]; simp

theorem vaugR_castSucc (t : Fin 1024) (d : Fin 64) : vaugR v t d.castSucc = v t d := by
  have h : (d.castSucc).val < 64 := d.isLt
  unfold vaugR; rw [dif_pos h]; rfl

/-- A query row against the update of a whole chunk: its scores against the chunk's rows, weighing the augmented values. -/
theorem row_upd (s : Fin 1024) (c' : Fin 4) (j : Fin 65) :
    ∑ m : Fin 64, fq s m * updR fk v c' m j
      = ∑ r' : Fin 256, scoreR fq fk s (row c' r') * vaugR v (row c' r') j := by
  unfold updR scoreR
  simp only [Finset.mul_sum, Finset.sum_mul]
  rw [Finset.sum_comm]
  refine Finset.sum_congr rfl fun r' _ => Finset.sum_congr rfl fun m _ => ?_
  ring

/-- A query row against the state: its scores against all rows of the earlier chunks. -/
theorem row_state (s : Fin 1024) (c : Fin 4) (j : Fin 65) :
    ∑ m : Fin 64, fq s m * stateR fk v c m j
      = ∑ c' : Fin 4, if c' < c then ∑ r' : Fin 256, scoreR fq fk s (row c' r') * vaugR v (row c' r') j else 0 := by
  unfold stateR
  simp only [Finset.mul_sum]
  rw [Finset.sum_comm]
  refine Finset.sum_congr rfl fun c' _ => ?_
  split_ifs with h
  · rw [← row_upd]
  · simp

/-- The masked scores of row `row c r` against chunk `c'`: all of them before `c`, the masked block at `c`, none after. -/
theorem chunk_split (c : Fin 4) (r : Fin 256) (j : Fin 65) (c' : Fin 4) :
    ∑ r' : Fin 256, trilR fq fk (row c r) (row c' r') * vaugR v (row c' r') j
      = (if c' < c then ∑ r' : Fin 256, scoreR fq fk (row c r) (row c' r') * vaugR v (row c' r') j else 0)
        + (if c' = c then ∑ r' : Fin 256,
            (if r' ≤ r then scoreR fq fk (row c r) (row c' r') else 0) * vaugR v (row c' r') j else 0) := by
  rcases lt_trichotomy c' c with h | h | h
  · rw [if_pos h, if_neg (ne_of_lt h), add_zero]
    refine Finset.sum_congr rfl fun r' _ => ?_
    unfold trilR; rw [if_pos (row_le_of_lt h r' r)]
  · subst h
    rw [if_neg (lt_irrefl _), if_pos rfl, zero_add]
    refine Finset.sum_congr rfl fun r' _ => ?_
    unfold trilR; simp only [row_le_row_iff]
  · rw [if_neg (not_lt_of_gt h), if_neg (ne_of_gt h), add_zero]
    refine Finset.sum_eq_zero fun r' _ => ?_
    unfold trilR; rw [if_neg (not_row_le_of_lt h r' r), zero_mul]

/-- The combination of state and masked block is the masked-score sum over all 1024 rows. -/
theorem combR_eq (c : Fin 4) (r : Fin 256) (j : Fin 65) :
    combR fq fk v c r j = ∑ t : Fin 1024, trilR fq fk (row c r) t * vaugR v t j := by
  rw [sum_row]
  simp only [chunk_split]
  rw [Finset.sum_add_distrib, Finset.sum_ite_eq' Finset.univ c, if_pos (Finset.mem_univ _)]
  unfold combR
  rw [row_state]

theorem combR_last (c : Fin 4) (r : Fin 256) :
    combR fq fk v c r (Fin.last 64) = rowSumR fq fk (row c r) := by
  rw [combR_eq]; unfold rowSumR
  simp only [vaugR_last, mul_one]

theorem combR_castSucc (c : Fin 4) (r : Fin 256) (d : Fin 64) :
    combR fq fk v c r d.castSucc = ∑ t : Fin 1024, trilR fq fk (row c r) t * v t d := by
  rw [combR_eq]
  simp only [vaugR_castSucc]

theorem chunkedR_eq_denseR (c : Fin 4) (r : Fin 256) (d : Fin 64) :
    combR fq fk v c r d.castSucc / combR fq fk v c r (Fin.last 64) = denseR fq fk v (row c r) d := by
  rw [combR_last, combR_castSucc]; unfold denseR
  rw [Finset.sum_div]
  refine Finset.sum_congr rfl fun t _ => ?_
  rw [div_mul_eq_mul_div]

variable (hq : ∀ s m, 0 < fq s m) (hk : ∀ s m, 0 < fk s m)
include hq hk

theorem scoreR_pos (s t : Fin 1024) : 0 < scoreR fq fk s t :=
  Finset.sum_pos (fun m _ => mul_pos (hq s m) (hk t m)) Finset.univ_nonempty

/-- The normaliser is positive: non-negative terms, and the diagonal one is positive. -/
theorem rowSumR_pos (s : Fin 1024) : 0 < rowSumR fq fk s := by
  unfold rowSumR
  refine Finset.sum_pos' (fun t _ => ?_) ⟨s, Finset.mem_univ _, ?_⟩
  · unfold trilR; split_ifs
    · exact (scoreR_pos fq fk hq hk s t).le
    · exact le_rfl
  · unfold trilR; rw [if_pos le_rfl]; exact scoreR_pos fq fk hq hk s s

end Reals

/-! ## The specification at real arguments -/

section Lift

theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem coe_ite (p : Prop) [Decidable p] (a b : ℝ) :
    ((if p then a else b : ℝ) : EReal) = if p then (a : EReal) else (b : EReal) := by
  split_ifs <;> rfl

/-- A quotient of reals with non-zero denominator. -/
theorem div_lift (a b : ℝ) (hb : b ≠ 0) : Ideal.div (a : EReal) (b : EReal) = ((a / b : ℝ) : EReal) := by
  rw [Ideal.div_coe hb, ← EReal.coe_mul, mul_one_div]

variable (fq fk v : RMat 1024 64)

theorem score_lift (s t : Fin 1024) : score (lift fq) (lift fk) s t = (scoreR fq fk s t : EReal) := by
  simp only [score, scoreR, lift, coe_sum, EReal.coe_mul]

theorem tril_lift (s t : Fin 1024) : tril (lift fq) (lift fk) s t = (trilR fq fk s t : EReal) := by
  simp only [tril, trilR, score_lift, coe_ite, EReal.coe_zero]

theorem rowSum_lift (s : Fin 1024) : rowSum (lift fq) (lift fk) s = (rowSumR fq fk s : EReal) := by
  simp only [rowSum, rowSumR, tril_lift, coe_sum]

theorem dense_lift (s : Fin 1024) (d : Fin 64) (h : rowSumR fq fk s ≠ 0) :
    dense (lift fq) (lift fk) (lift v) s d = (denseR fq fk v s d : EReal) := by
  simp only [dense, denseR, tril_lift, rowSum_lift, coe_sum, div_lift _ _ h, EReal.coe_mul]
  rfl

theorem vaug_lift (t : Fin 1024) (j : Fin 65) : vaug (lift v) t j = (vaugR v t j : EReal) := by
  unfold vaug vaugR
  split_ifs
  · rfl
  · exact EReal.coe_one.symm

theorem upd_lift (c : Fin 4) (m : Fin 64) (j : Fin 65) :
    upd (lift fk) (lift v) c m j = (updR fk v c m j : EReal) := by
  simp only [upd, updR, vaug_lift, coe_sum, EReal.coe_mul]
  rfl

theorem state_lift (c : Fin 4) (m : Fin 64) (j : Fin 65) :
    state (lift fk) (lift v) c m j = (stateR fk v c m j : EReal) := by
  have hc : c = 0 ∨ c = 1 ∨ c = 2 ∨ c = 3 := by
    have := c.isLt
    rcases c with ⟨n, hn⟩
    simp only [Fin.ext_iff]
    show n = 0 ∨ n = 1 ∨ n = 2 ∨ n = 3
    omega
  rcases hc with rfl | rfl | rfl | rfl
  · show state0 (lift fk) (lift v) m j = _
    simp [state0, stateR]
  · show state1 (lift fk) (lift v) m j = _
    simp [state1, state0, stateR, upd_lift, Fin.sum_univ_four]
  · show state2 (lift fk) (lift v) m j = _
    simp [state2, state1, state0, stateR, upd_lift, Fin.sum_univ_four]
  · show state3 (lift fk) (lift v) m j = _
    simp [state3, state2, state1, state0, stateR, upd_lift, Fin.sum_univ_four]

theorem comb_lift (c : Fin 4) (r : Fin 256) (j : Fin 65) :
    comb (lift fq) (lift fk) (lift v) c r j = (combR fq fk v c r j : EReal) := by
  have h : comb (lift fq) (lift fk) (lift v) c r j
      = (∑ m : Fin 64, lift fq (row c r) m * state (lift fk) (lift v) c m j)
        + ∑ r' : Fin 256, (if r' ≤ r then score (lift fq) (lift fk) (row c r) (row c r') else 0)
            * vaug (lift v) (row c r') j := rfl
  rw [h]
  simp only [combR, state_lift, score_lift, vaug_lift, coe_sum, EReal.coe_mul, EReal.coe_add, coe_ite, EReal.coe_zero]
  rfl

theorem chunked_lift (c : Fin 4) (r : Fin 256) (d : Fin 64) (h : combR fq fk v c r (Fin.last 64) ≠ 0) :
    chunked (lift fq) (lift fk) (lift v) c r d
      = ((combR fq fk v c r d.castSucc / combR fq fk v c r (Fin.last 64) : ℝ) : EReal) := by
  unfold chunked
  rw [comb_lift, comb_lift, div_lift _ _ h]

end Lift

/-! ## Assembly -/

/-- Chunked equals dense at positive real features and real values. -/
theorem core (fq fk v : RMat 1024 64) (hq : ∀ s m, 0 < fq s m) (hk : ∀ s m, 0 < fk s m)
    (c : Fin 4) (r : Fin 256) (d : Fin 64) :
    chunked (lift fq) (lift fk) (lift v) c r d = dense (lift fq) (lift fk) (lift v) (row c r) d := by
  have hR : rowSumR fq fk (row c r) ≠ 0 := (rowSumR_pos fq fk hq hk (row c r)).ne'
  have hC : combR fq fk v c r (Fin.last 64) ≠ 0 := by rw [combR_last]; exact hR
  rw [chunked_lift fq fk v c r d hC, dense_lift fq fk v (row c r) d hR, chunkedR_eq_denseR]

theorem chunked_eq_dense (q k v : Cert.Spec.Mat 1024 64) (P : Cert.Spec.Mat 64 64)
    (hq : ∀ s d, ∃ r : ℝ, q s d = (r : EReal)) (hk : ∀ s d, ∃ r : ℝ, k s d = (r : EReal))
    (hv : ∀ s d, ∃ r : ℝ, v s d = (r : EReal)) (hP : ∀ a b, ∃ r : ℝ, P a b = (r : EReal))
    (c : Fin 4) (r : Fin 256) (d : Fin 64) :
    Cert.Spec.chunked (Cert.Spec.featQ q P) (Cert.Spec.featK k P) v c r d
      = Cert.Spec.dense (Cert.Spec.featQ' q P) (Cert.Spec.featK' k P) v (Cert.Spec.row c r) d := by
  rw [featQ'_eq, featK'_eq]
  obtain ⟨fq, hfq, eq⟩ := featQ_real q P hq hP
  obtain ⟨fk, hfk, ek⟩ := featK_real k P hk hP
  choose v' hv' using hv
  have ev : v = lift v' := funext fun s => funext fun d => hv' s d
  rw [eq, ek, ev]
  exact core fq fk v' hfq hfk c r d

end Cert.Alg

end
-- ==== Proof.FiniteIn.lean ====
/- The inputs are finite: the stated precondition says of each of the four arrays that every entry `x` has `|x| < +∞`
   (an absolute value, an ordered comparison against the literal `+∞`, the conjunction over all entries, and the conjunction
   of the four results). At the extended reals `|x| = max x (−x)`, which is `+∞` at both infinities, so an entry with
   `|x| < +∞` is a real number. -/
import proofs.«170563_j12987981103117_2_alg».proof.Pre_finite_inputs
import Idealize.ShloMosaic.Lib.ReduceAll
import Idealize.ShloMosaic.Lib.ValueIdx
import Idealize.ShloMosaic.PureOps.Ideal.Laws

noncomputable section

namespace Cert.FiniteIn

open Idealize.ShloMosaic Cert.Pre_finite_inputs

/-- The scalar shape has one index. -/
instance : Subsingleton S_.Idx := ⟨fun _ _ => funext fun d => d.elim0⟩

/-- The literal `0x7F800000` is `+∞`. -/
theorem inf_eq : Ideal.ofBits .f32 0x7F800000#32 = (⊤ : EReal) := by
  simp [Ideal.ofBits, Ideal.ieee]

/-- `max x (−x) < +∞` holds only of real numbers: at `−∞` and at `+∞` the maximum is `+∞`. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One entry of one array: the comparison of its absolute value against the broadcast literal came out true. -/
theorem elem {s : Shape} (dims : Fin S_.rank → Fin s.rank) (hb : S_.BroadcastsInDim s dims) (a : FVec Ideal s .f32)
    (i : s.Idx)
    (h : cmpf .olt (Host.absf a) (broadcastInDim s dims hb (constant (F := Ideal) S_ .f32 0x7F800000#32)) i = 1#1) :
    ∃ r : ℝ, a i = (r : EReal) := by
  apply real_of_abs_lt_top
  rw [← inf_eq]
  exact h

theorem finite_of_pre [Cert.Pre_finite_inputs.Facts]
    (a0 a1 a2 : FVec Ideal Cert.Pre_finite_inputs.S4x16x1024x64 .f32) (a3 : FVec Ideal Cert.Pre_finite_inputs.S64x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e := congrFun h ValueIdx.ix0
  unfold Cert.Pre_finite_inputs.fn Cert.Pre_finite_inputs.fn_part1 at e
  dsimp only at e
  simp only [andi, IntOp.andi_eq_one] at e
  obtain ⟨⟨⟨h0, h1⟩, h2⟩, h3⟩ := e
  exact ⟨fun i => elem _ _ a0 i (Host.reduce_andi_all _ _ _ _ _ h0 i),
    fun i => elem _ _ a1 i (Host.reduce_andi_all _ _ _ _ _ h1 i),
    fun i => elem _ _ a2 i (Host.reduce_andi_all _ _ _ _ _ h2 i),
    fun i => elem _ _ a3 i (Host.reduce_andi_all _ _ _ _ _ h3 i)⟩

end Cert.FiniteIn

end
-- ==== Proof.Bridge.lean ====
/- The two idealized programs end with equal results.

   The kernel's result array is `attn` of the four arguments (the chunked form, head by head); the reference's is its last host
   operation's value, which is the dense form; for finite inputs the two forms agree (the algebra), and the precondition says the
   inputs are finite. -/
import proofs.«170563_j12987981103117_2_alg».proof.Defs
import proofs.«170563_j12987981103117_2_alg».proof.Proof.Gen.Pre_finite_inputs
import proofs.«170563_j12987981103117_2_alg».proof.Proof.KFinal
import proofs.«170563_j12987981103117_2_alg».proof.Proof.RefSide
import proofs.«170563_j12987981103117_2_alg».proof.Proof.Algebra
import proofs.«170563_j12987981103117_2_alg».proof.Proof.FiniteIn

set_option maxRecDepth 16384

noncomputable section

namespace Cert.Bridge

open Idealize.ShloMosaic Idealize.ShloMosaic.ValueIdx Idealize.ShloMosaic.TcCoe Idealize.SL.Sem Cert.Spec Cert.KFinal

/-- For finite arguments the kernel's result function is the reference's last value. -/
theorem attn_eq_ref (A0 A1 A2 : Cert.KernelIdeal.S4x16x1024x64.Idx → EReal) (A3 : Cert.KernelIdeal.S64x64.Idx → EReal)
    (h0 : ∀ i, ∃ r : ℝ, A0 i = (r : EReal)) (h1 : ∀ i, ∃ r : ℝ, A1 i = (r : EReal)) (h2 : ∀ i, ∃ r : ℝ, A2 i = (r : EReal))
    (h3 : ∀ i, ∃ r : ℝ, A3 i = (r : EReal)) :
    attn A0 A1 A2 A3 = Cert.ReferenceIdeal.Read.val_main_v44 (F := Ideal) A0 A1 A2 A3 := by
  funext i
  obtain ⟨b, h, s, d, rfl⟩ : ∃ (b : Fin 4) (h : Fin 16) (s : Fin 1024) (d : Fin 64), i = ix4 b h s d :=
    ⟨i 0, i 1, i 2, i 3, eq_ix4 i⟩
  rw [Cert.RefSide.ref_eq]
  unfold attn
  have eb : cB (ix4 b h s d) = b := Fin.ext rfl
  have eh : cH (ix4 b h s d) = h := Fin.ext rfl
  have ed : cCol (ix4 b h s d) = d := Fin.ext rfl
  have es : row (cChunk (ix4 b h s d)) (cRow (ix4 b h s d)) = s :=
    Fin.ext (by show 256 * (s.val / 256) + s.val % 256 = s.val; omega)
  rw [eb, eh, ed]
  rw [Cert.Alg.chunked_eq_dense (head A0 b h) (head A1 b h) (head A2 b h) (mat A3)
    (fun s' d' => h0 (ix4 b h s' d')) (fun s' d' => h1 (ix4 b h s' d')) (fun s' d' => h2 (ix4 b h s' d'))
    (fun a b' => h3 (ix2 a b')), es]

/-- The two idealized programs, run from memories agreeing on the arguments, end with equal results. -/
theorem algebraic : Cert.algebraic_KernelIdeal_ReferenceIdeal := by
  intro m ρ m' ρ' hpre hagree
  refine ⟨fun c => attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), Cert.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.FiniteIn.finite_of_pre _ _ _ _ (hpre c)
  rw [Cert.ReferenceIdeal.Read.val_main_v44_eq, (hagree c).1, (hagree c).2.1, (hagree c).2.2.1, (hagree c).2.2.2]
  exact (attn_eq_ref _ _ _ _ f0 f1 f2 f3).symm

end Cert.Bridge

end
-- ==== Proof.lean ====
/- The claim of this directory: a causal random-feature (softmax-kernel) linear attention computed chunk by chunk with a running
   state, against the dense lower-triangular form normalised row by row.

   The three frames are the generated ones (the reference's is its run with the result dropped); the idealization rewrote nothing, so
   `preserves` is trivial; the value claim is Proof/Bridge.lean: the kernel's result array is the chunked form of each head
   (Proof/KChunk, KFeat, KValue, KRun, KFinal), the reference's is the dense form (Proof/RefSide), and the two agree for finite
   inputs (Proof/Algebra, Proof/FiniteIn). -/
import proofs.«170563_j12987981103117_2_alg».proof.Defs
import proofs.«170563_j12987981103117_2_alg».proof.Proof.Gen.Kernel
import proofs.«170563_j12987981103117_2_alg».proof.Proof.Gen.Kernel.Skeleton
import proofs.«170563_j12987981103117_2_alg».proof.Proof.Gen.Kernel.Launch
import proofs.«170563_j12987981103117_2_alg».proof.Proof.Gen.Kernel.Points
import proofs.«170563_j12987981103117_2_alg».proof.Proof.Gen.Kernel.Frame
import proofs.«170563_j12987981103117_2_alg».proof.Proof.Gen.KernelIdeal
import proofs.«170563_j12987981103117_2_alg».proof.Proof.Gen.KernelIdeal.Skeleton
import proofs.«170563_j12987981103117_2_alg».proof.Proof.Gen.KernelIdeal.Launch
import proofs.«170563_j12987981103117_2_alg».proof.Proof.Gen.KernelIdeal.Points
import proofs.«170563_j12987981103117_2_alg».proof.Proof.Gen.KernelIdeal.Frame
import proofs.«170563_j12987981103117_2_alg».proof.Proof.Gen.KernelIdeal.Value
import proofs.«170563_j12987981103117_2_alg».proof.Proof.Gen.ReferenceIdeal
import proofs.«170563_j12987981103117_2_alg».proof.Proof.Gen.ReferenceIdeal.Run
import proofs.«170563_j12987981103117_2_alg».proof.Proof.Gen.ReferenceIdeal.Read
import proofs.«170563_j12987981103117_2_alg».proof.Proof.Gen.Pre_finite_inputs
import proofs.«170563_j12987981103117_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
